-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S10000x512 : Shape := ⟨2, ![10000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x512 .f32) (main_arg1 : IVec S4096 32) (main_arg2 : FVec F S10000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S10000x512 .f32 := Host.absf main_arg2
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg1 main_v9
  let main_c_3 : IVec S_ 32 := constantI S_ 32 10000#32
  let main_v11 : IVec S4096 32 := broadcastInDim S4096 ![] bcast_S_S4096 main_c_3
  let main_v12 : IVec S4096 1 := cmpi .slt main_arg1 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S10240x512 : Shape := ⟨2, ![10240, 512]⟩
abbrev S4096x1 : Shape := ⟨2, ![4096, 1]⟩
abbrev S10240 : Shape := ⟨1, ![10240]⟩
abbrev S1x10240 : Shape := ⟨2, ![1, 10240]⟩
abbrev S80x128 : Shape := ⟨2, ![80, 128]⟩
abbrev S512x512 : Shape := ⟨2, ![512, 512]⟩
abbrev S512x1 : Shape := ⟨2, ![512, 1]⟩
abbrev S1024x512 : Shape := ⟨2, ![1024, 512]⟩
abbrev S1x1024 : Shape := ⟨2, ![1, 1024]⟩
abbrev S8x128 : Shape := ⟨2, ![8, 128]⟩
abbrev S1x1 : Shape := ⟨2, ![1, 1]⟩
abbrev S512x1024 : Shape := ⟨2, ![512, 1024]⟩
abbrev S512 : Shape := ⟨1, ![512]⟩
abbrev S1 : Shape := ⟨1, ![1]⟩

abbrev nBuf : Space → Nat
  | .hbm => 20
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S_, .i32⟩
  | .hbm, ⟨4, _⟩ => ⟨S_, .f32⟩
  | .hbm, ⟨5, _⟩ => ⟨S10240x512, .f32⟩
  | .hbm, ⟨6, _⟩ => ⟨S4096x1, .i32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S10240x512, .f32⟩
  | .hbm, ⟨12, _⟩ => ⟨S_, .f32⟩
  | .hbm, ⟨13, _⟩ => ⟨S10240, .f32⟩
  | .hbm, ⟨14, _⟩ => ⟨S1x10240, .f32⟩
  | .hbm, ⟨15, _⟩ => ⟨S80x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x1, .i32⟩
  | .local _ .vmem, ⟨3, _⟩ => ⟨S512x1, .i32⟩
  | .local _ .vmem, ⟨4, _⟩ => ⟨S1024x512, .f32⟩
  | .local _ .vmem, ⟨5, _⟩ => ⟨S1024x512, .f32⟩
  | .local _ .vmem, ⟨6, _⟩ => ⟨S512x1, .f32⟩
  | .local _ .vmem, ⟨7, _⟩ => ⟨S512x1, .f32⟩
  | .local _ .vmem, ⟨8, _⟩ => ⟨S1x1024, .f32⟩
  | .local _ .vmem, ⟨9, _⟩ => ⟨S1x1024, .f32⟩
  | .local _ .vmem, ⟨10, _⟩ => ⟨S8x128, .f32⟩
  | .local _ .vmem, ⟨11, _⟩ => ⟨S8x128, .f32⟩
  | .local _ .vmem, ⟨12, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![10, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  pads_S10000x512_S10240x512_02400_000 : S10000x512.Pads (![0, 0] : Fin 2 → Nat) ![240, 0] ![0, 0] S10240x512
  h_S_ : 0 < S_.numel
  shapeCasts_S4096_S4096x1 : S4096.ShapeCasts S4096x1
  reducesTo_S4096x512_S4096_d1 : S4096x512.ReducesTo [1] S4096
  bcast_S4096_S4096x1_0 : S4096.BroadcastsInDim S4096x1 (![0] : Fin 1 → Fin S4096x1.rank)
  reducesTo_S10240x512_S10240_d1 : S10240x512.ReducesTo [1] S10240
  bcast_S10240_S1x10240_1 : S10240.BroadcastsInDim S1x10240 (![1] : Fin 1 → Fin S1x10240.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  iota_S512x1024_d1_w32 : S512x1024.Iotas .tc 32 [1]
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  iota_S8x128_d0_w32 : S8x128.Iotas .tc 32 [0]
  iota_S8x128_d1_w32 : S8x128.Iotas .tc 32 [1]
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S80x128_S_d0_1 : S80x128.ReducesTo [0, 1] S_
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .i32 = 32 ∨ (Rect.block (s := S4096x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S10240x512.size a
  hwx0_2 : ∀ i : grid0.Coords, EltTy.bits .f32 = 32 ∨ (Rect.block (s := S10240x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x10240.size a
  hwx0_4 : ∀ i : grid0.Coords, EltTy.bits .f32 = 32 ∨ (Rect.block (s := S1x10240) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S80x128.size a
  hwx0_5 : ∀ i : grid0.Coords, EltTy.bits .f32 = 32 ∨ (Rect.block (s := S80x128) S8x128.size (cc0_transform_5 i) (hinb0_5 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S4096x1 : Shape := ⟨2, ![4096, 1]⟩
abbrev S10000 : Shape := ⟨1, ![10000]⟩
abbrev S1x10000 : Shape := ⟨2, ![1, 10000]⟩
abbrev S4096x10000 : Shape := ⟨2, ![4096, 10000]⟩
abbrev S512x10000 : Shape := ⟨2, ![512, 10000]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S10000x512, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S4096x10000, .f32⟩
  | .hbm, ⟨12, _⟩ => ⟨S4096x10000, .f32⟩
  | .hbm, ⟨13, _⟩ => ⟨S4096x10000, .f32⟩
  | .hbm, ⟨14, _⟩ => ⟨S512x10000, .f32⟩
  | .hbm, ⟨15, _⟩ => ⟨S4096x10000, .f32⟩
  | .hbm, ⟨16, _⟩ => ⟨S_, .f32⟩
  | .hbm, ⟨17, _⟩ => ⟨S4096x10000, .f32⟩
  | .hbm, ⟨18, _⟩ => ⟨S4096x10000, .f32⟩
  | .hbm, ⟨19, _⟩ => ⟨S4096x10000, .f32⟩
  | .hbm, ⟨20, _⟩ => ⟨S4096x1, .i32⟩
  | .hbm, ⟨21, _⟩ => ⟨S10000, .i32⟩
  | .hbm, ⟨22, _⟩ => ⟨S1x10000, .i32⟩
  | .hbm, ⟨23, _⟩ => ⟨S4096x10000, .i32⟩
  | .hbm, ⟨24, _⟩ => ⟨S4096x10000, .i32⟩
  | .hbm, ⟨25, _⟩ => ⟨S4096x10000, .i1⟩
  | .hbm, ⟨26, _⟩ => ⟨S4096x10000, .f32⟩
  | .hbm, ⟨27, _⟩ => ⟨S4096x10000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S10000x512_S10000_d1 : S10000x512.ReducesTo [1] S10000
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  transposes_S10000x512_S512x10000_1_0 : S10000x512.Transposes [1, 0] S512x10000
  bcast_S_S4096x10000 : S_.BroadcastsInDim S4096x10000 (![] : Fin 0 → Fin S4096x10000.rank)
  reducesTo_S4096x10000_S_d0_1 : S4096x10000.ReducesTo [0, 1] S_
  dot_S4096x512_S512x10000_S4096x10000_1_0_0_1_n_n_wf : DotDims.WF S4096x512 S512x10000 S4096x10000 [1] [0] [0] [1] [] []

variable [Facts₀]

def dot_S4096x512_S512x10000_S4096x10000_1_0_0_1_n_n : DotDims S4096x512 S512x10000 S4096x10000 where
  lhsContracting := [1]
  rhsContracting := [0]
  lhsNonContracting := [0]
  rhsNonContracting := [1]
  lhsBatch := []
  rhsBatch := []
  wf := dot_S4096x512_S512x10000_S4096x10000_1_0_0_1_n_n_wf

class Facts : Prop extends Facts₀ where

variable [Facts]
-- ==== Proof.Pieces.lean ====
/-
  What one grid point leaves behind, case by case, as pure functions of what it loaded.

  The kernel keeps a 1 × 1 accumulator across the eight batch tiles of one class tile.  At every point the body loads its
  five input blocks and the accumulator, and stores back  accumulator + (this tile's partial sum)  — the term `step`
  below.  At the first batch tile of a class tile the accumulator is first overwritten with zero and that zero is what
  the body reads back; at the last batch tile the body also stores the output block, computed from the accumulator it
  has just written.  So, with `acc` what the point before left:
    first batch tile   the accumulator ends at  step (zero);
    middle batch tiles the accumulator ends at  step (acc);
    last batch tile    the accumulator ends at  step (acc)  and the output block at  corner (step (acc)).
-/
import proofs.«136891_j29094108463751_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- The accumulator after a point: what it held plus the tile's partial sum (the body's last store's value). -/
abbrev step (i : grid0.Coords) (x0 : Vec F S512x512 .f32) (x1 : Vec F S512x1 .i32) (x2 : Vec F S1024x512 .f32) (x3 : Vec F S512x1 .f32) (x4 : Vec F S1x1024 .f32) (acc : Vec F S1x1 .f32) : Vec F S1x1 .f32 :=
  k0_pay1 (k0_pay4 i x0 x2 x3 x4 x1 acc)

/-- A middle batch tile: the accumulator ends at `step acc`. -/
theorem scratch_B (c : Dev nD) (i : grid0.Coords) (a2 : Memref sig .tc .vmem S512x512 .f32) (h2 : a2.IsWhole) (a3 : Memref sig .tc .vmem S512x1 .i32) (h3 : a3.IsWhole) (a4 : Memref sig .tc .vmem S1024x512 .f32) (h4 : a4.IsWhole) (a5 : Memref sig .tc .vmem S512x1 .f32) (h5 : a5.IsWhole) (a6 : Memref sig .tc .vmem S1x1024 .f32) (h6 : a6.IsWhole) (a7 : Memref sig .tc .vmem S8x128 .f32) (h7 : a7.IsWhole) (a8 : Memref sig .tc .vmem S1x1 .f32) (h8 : a8.IsWhole) (hc0 : ¬cond0_0 i) (hc1 : ¬cond0_1 i) (x0 : Vec F S512x512 .f32) (x1 : Vec F S512x1 .i32) (x2 : Vec F S1024x512 .f32) (x3 : Vec F S512x1 .f32) (x4 : Vec F S1x1024 .f32) (xs0 : Vec F S1x1 .f32) :
    sout0_B_0 c i a2 h2 a3 h3 a4 h4 a5 h5 a6 h6 a7 h7 a8 h8 hc0 hc1 x0 x1 x2 x3 x4 xs0 = step i x0 x1 x2 x3 x4 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero (S := S1x1) hz]
  simp only [View.readAt_eq_ld, h2.read_unread, h3.read_unread, h4.read_unread, h5.read_unread, h6.read_unread, View.ld_unit_zero (S := S512x512) hz, View.ld_unit_zero (S := S1024x512) hz, View.ld_unit_zero (S := S512x1) hz, View.ld_unit_zero (S := S1x1024) hz, h8.read_unread, View.ld_unit_zero (S := S1x1) hz]

/-- The last batch tile: the accumulator ends at `step acc` too. -/
theorem scratch_C (c : Dev nD) (i : grid0.Coords) (a2 : Memref sig .tc .vmem S512x512 .f32) (h2 : a2.IsWhole) (a3 : Memref sig .tc .vmem S512x1 .i32) (h3 : a3.IsWhole) (a4 : Memref sig .tc .vmem S1024x512 .f32) (h4 : a4.IsWhole) (a5 : Memref sig .tc .vmem S512x1 .f32) (h5 : a5.IsWhole) (a6 : Memref sig .tc .vmem S1x1024 .f32) (h6 : a6.IsWhole) (a7 : Memref sig .tc .vmem S8x128 .f32) (h7 : a7.IsWhole) (a8 : Memref sig .tc .vmem S1x1 .f32) (h8 : a8.IsWhole) (hc0 : ¬cond0_0 i) (hc1 : cond0_1 i) (x0 : Vec F S512x512 .f32) (x1 : Vec F S512x1 .i32) (x2 : Vec F S1024x512 .f32) (x3 : Vec F S512x1 .f32) (x4 : Vec F S1x1024 .f32) (xs0 : Vec F S1x1 .f32) :
    sout0_C_0 c i a2 h2 a3 h3 a4 h4 a5 h5 a6 h6 a7 h7 a8 h8 hc0 hc1 x0 x1 x2 x3 x4 xs0 = step i x0 x1 x2 x3 x4 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero (S := S1x1) hz]
  simp only [View.readAt_eq_ld, h2.read_unread, h3.read_unread, h4.read_unread, h5.read_unread, h6.read_unread, View.ld_unit_zero (S := S512x512) hz, View.ld_unit_zero (S := S1024x512) hz, View.ld_unit_zero (S := S512x1) hz, View.ld_unit_zero (S := S1x1024) hz, h8.read_unread, View.ld_unit_zero (S := S1x1) hz]

/-- The first batch tile: the accumulator is zeroed, read back, and ends at `step zero`. -/
theorem scratch_A (c : Dev nD) (i : grid0.Coords) (a2 : Memref sig .tc .vmem S512x512 .f32) (h2 : a2.IsWhole) (a3 : Memref sig .tc .vmem S512x1 .i32) (h3 : a3.IsWhole) (a4 : Memref sig .tc .vmem S1024x512 .f32) (h4 : a4.IsWhole) (a5 : Memref sig .tc .vmem S512x1 .f32) (h5 : a5.IsWhole) (a6 : Memref sig .tc .vmem S1x1024 .f32) (h6 : a6.IsWhole) (a7 : Memref sig .tc .vmem S8x128 .f32) (h7 : a7.IsWhole) (a8 : Memref sig .tc .vmem S1x1 .f32) (h8 : a8.IsWhole) (hc0 : cond0_0 i) (hc1 : ¬cond0_1 i) (x0 : Vec F S512x512 .f32) (x1 : Vec F S512x1 .i32) (x2 : Vec F S1024x512 .f32) (x3 : Vec F S512x1 .f32) (x4 : Vec F S1x1024 .f32) :
    sout0_A_0 c i a2 h2 a3 h3 a4 h4 a5 h5 a6 h6 a7 h7 a8 h8 hc0 hc1 x0 x1 x2 x3 x4 = step i x0 x1 x2 x3 x4 (k0_pay3 (F := F)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread, h6.read_unread, View.ld_unit_zero (S := S512x512) hz, View.ld_unit_zero (S := S1024x512) hz, View.ld_unit_zero (S := S512x1) hz, View.ld_unit_zero (S := S1x1024) hz]

/-- The last batch tile's output block: the 8 × 128 block built from the accumulator the point has just written. -/
theorem out_C (c : Dev nD) (i : grid0.Coords) (a2 : Memref sig .tc .vmem S512x512 .f32) (h2 : a2.IsWhole) (a3 : Memref sig .tc .vmem S512x1 .i32) (h3 : a3.IsWhole) (a4 : Memref sig .tc .vmem S1024x512 .f32) (h4 : a4.IsWhole) (a5 : Memref sig .tc .vmem S512x1 .f32) (h5 : a5.IsWhole) (a6 : Memref sig .tc .vmem S1x1024 .f32) (h6 : a6.IsWhole) (a7 : Memref sig .tc .vmem S8x128 .f32) (h7 : a7.IsWhole) (a8 : Memref sig .tc .vmem S1x1 .f32) (h8 : a8.IsWhole) (hc0 : ¬cond0_0 i) (hc1 : cond0_1 i) (x0 : Vec F S512x512 .f32) (x1 : Vec F S512x1 .i32) (x2 : Vec F S1024x512 .f32) (x3 : Vec F S512x1 .f32) (x4 : Vec F S1x1024 .f32) (xs0 : Vec F S1x1 .f32) :
    out0_C_5 c i a2 h2 a3 h3 a4 h4 a5 h5 a6 h6 a7 h7 a8 h8 hc0 hc1 x0 x1 x2 x3 x4 xs0 = k0_pay2 (step i x0 x1 x2 x3 x4 xs0) := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero (S := S8x128) hz, View.readCov_unit_zero (S := S1x1) _ hz]
  simp only [View.readAt_eq_ld, h2.read_unread, h3.read_unread, h4.read_unread, h5.read_unread, h6.read_unread, View.ld_unit_zero (S := S512x512) hz, View.ld_unit_zero (S := S1024x512) hz, View.ld_unit_zero (S := S512x1) hz, View.ld_unit_zero (S := S1x1024) hz, h8.read_unread, View.ld_unit_zero (S := S1x1) hz]

end Cert.KernelIdeal.Pieces

end
-- ==== Proof.LibColumns.lean ====
/-
  Layout operations on a column of per-row values, read at an index: a vector of `a` values cast to an `a × 1`
  column reads, at row `p`, the vector at `p`; a column broadcast over `b` lanes reads, at `(p, c)`, the column at
  row `p`. (What a row reduction kept as a column and spread back over the row does to indices.)
-/
import Idealize.ShloMosaic.Lib.Pipeline.Value
import Idealize.ShloMosaic.Lib.ValueIdx
import Idealize.ShloMosaic.Lib.ValueLayout

namespace Idealize.ShloMosaic.LibColumns

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumns
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.TileValue.lean ====
/-
  One tile's partial sum, read as plain sums.

  At a grid point the body holds a 512-sample block of `x` (x0), the samples' labels (x1, a column), a 1024-centre block
  (x2), the samples' squared norms (x3, a column) and the centres' squared norms (x4, a row).  For sample `p` and centre
  `j` of the tile it forms  (x3 p + x4 j) − 2 · Σ_k x0 p k · x2 j k  — the rounding to a shorter format on the way into the
  matrix product is the identity on exact values, and the product accumulated into zeros is the plain sum — keeps it where
  the sample's label is the centre's class number  base + j  (base = 1024 · the class tile's number), puts zero elsewhere,
  and sums over the tile: first along each row, then down the column of row sums.  The accumulator gets that sum added.
  The output block, written after the last batch tile, holds the accumulator at its corner (row 0, lane 0) and zero
  elsewhere.
-/
import proofs.«136891_j29094108463751_2_alg».proof.Proof.Pieces
import proofs.«136891_j29094108463751_2_alg».proof.Proof.LibColumns
import proofs.«136891_j29094108463751_2_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.TileValue

open Cert.KernelIdeal Cert.KernelIdeal.Gen
open Idealize.ShloMosaic Idealize.ShloMosaic.ValueIdx

/-! ## Sums along one axis of a matrix -/

/-- The sum along each row of an a × b matrix, at row `p`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ j : Fin b, src (ix2 p j) := by
  refine (Ideal.multiReduction_add_single src 0x00000000#32 h hφ hacc (ix1 p)).trans ?_
  show ∑ k : Fin b, src (h.lift (ix1 p) k) = _
  refine Finset.sum_congr rfl fun k _ => congrArg src ?_
  funext c; apply Fin.ext; fin_cases c <;> rfl

/-- The sum down an a × 1 column, at its one entry. -/
theorem colSum_apply {a : ℕ} (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ p : Fin a, src (ix2 p u) := by
  refine (Ideal.multiReduction_add_single src 0x00000000#32 h hφ hacc (ix1 u)).trans ?_
  show ∑ k : Fin a, src (h.lift (ix1 u) k) = _
  refine Finset.sum_congr rfl fun k _ => congrArg src ?_
  funext c; apply Fin.ext; fin_cases c <;> rfl

/-! ## A comparison word as a proposition -/

/-- Selecting on an equality test of two words is an `if` on their equality. -/
theorem select_cmpi_eq {α : Type} {w : ℕ} (a b : BitVec w) (d z : α) :
    Scalar.select (IntOp.cmpi .eq a b) d z = if a = b then d else z := by
  unfold Scalar.select IntOp.cmpi
  by_cases h : a = b
  · subst h; simp
  · rw [if_neg h]
    have hb : (a == b) = false := by simpa using h
    show (if BitVec.ofBool (a == b) = 1#1 then d else z) = z
    rw [hb]
    exact if_neg (by decide)

/-! ## The tile -/

variable (x0 : FVec Ideal S512x512 .f32) (x1 : IVec S512x1 32) (x2 : FVec Ideal S1024x512 .f32)
  (x3 : FVec Ideal S512x1 .f32) (x4 : FVec Ideal S1x1024 .f32)

/-- What sample `p` and centre `j` of the tile contribute: the expanded squared distance when the sample's label is the
    centre's class number `base + j`, else zero. -/
def term (base : BitVec 32) (p : Fin 512) (j : Fin 1024) : EReal :=
  if x1 (ix2 p (0 : Fin 1)) = base + BitVec.ofNat 32 j.val then
    (x3 (ix2 p (0 : Fin 1)) + x4 (ix2 (0 : Fin 1) j)) - Ideal.ofBits .f32 0x40000000#32 * ∑ k : Fin 512, x0 (ix2 p k) * x2 (ix2 j k)
  else 0

/-- The tile's partial sum. -/
def tile (base : BitVec 32) : EReal := ∑ p : Fin 512, ∑ j : Fin 1024, term x0 x1 x2 x3 x4 base p j

/-- The tile's inner products: the matrix unit's product of the sample block with the transposed centre block, at (p, j). -/
theorem prods_apply (hb : FTy.bits .bf16 < FTy.bits .f32) (hs : S1024x512.ShapeCasts S1024x512)
    (ht : S1024x512.Transposes [1, 0] S512x1024) (p : Fin 512) (j : Fin 1024) :
    matmul dot_S512x512_S512x1024_S512x1024_1_0_0_1_n_n none (truncf .bf16 x0 hb)
        (transpose S512x1024 [1, 0] (truncf .bf16 (shapeCast S1024x512 x2 hs) hb) ht)
        (constant (F := Ideal) S512x1024 .f32 0x00000000#32) (ix2 p j)
      = ∑ k : Fin 512, x0 (ix2 p k) * x2 (ix2 j k) := by
  rw [shapeCast_self]
  refine (PlainProduct.matmul_zero_apply (M := 512) (K := 512) (P := 1024) dot_S512x512_S512x1024_S512x1024_1_0_0_1_n_n.wf none _ _ p j).trans ?_
  refine Finset.sum_congr rfl fun k _ => ?_
  rw [transpose_ix2_apply]
  rfl

/-- The masked distance matrix at (p, j). -/
theorem masked_apply (base : BitVec 32) (hb : FTy.bits .bf16 < FTy.bits .f32) (hs2 : S1024x512.ShapeCasts S1024x512)
    (ht : S1024x512.Transposes [1, 0] S512x1024) (hs3 : S512x1.ShapeCasts S512x1) (hs4 : S1x1024.ShapeCasts S1x1024)
    (hb3 : S512x1.Broadcasts S512x1024) (hb4 : S1x1024.Broadcasts S512x1024) (hi : S512x1024.Iotas .tc 32 [1])
    (p : Fin 512) (j : Fin 1024) :
    select (cmpi .eq (broadcastTo S512x1024 (shapeCast S512x1 x1 hs3) hb3)
          (addi (broadcast S512x1024 base) (iota .tc S512x1024 32 [1] hi)))
        (subf (addf (broadcastTo S512x1024 (shapeCast S512x1 x3 hs3) hb3) (broadcastTo S512x1024 (shapeCast S1x1024 x4 hs4) hb4))
          (mulf (broadcast S512x1024 (Scalar.ofBits (F := Ideal) .f32 0x40000000#32))
            (matmul dot_S512x512_S512x1024_S512x1024_1_0_0_1_n_n none (truncf .bf16 x0 hb)
              (transpose S512x1024 [1, 0] (truncf .bf16 (shapeCast S1024x512 x2 hs2) hb) ht)
              (constant (F := Ideal) S512x1024 .f32 0x00000000#32))))
        (broadcast S512x1024 (Scalar.ofBits (F := Ideal) .f32 0x00000000#32)) (ix2 p j)
      = term x0 x1 x2 x3 x4 base p j := by
  rw [select_apply]
  show Scalar.select (IntOp.cmpi .eq (broadcastTo S512x1024 (shapeCast S512x1 x1 hs3) hb3 (ix2 p j))
      (IntOp.addi base (iota .tc S512x1024 32 [1] hi (ix2 p j))))
    ((broadcastTo S512x1024 (shapeCast S512x1 x3 hs3) hb3 (ix2 p j) + broadcastTo S512x1024 (shapeCast S1x1024 x4 hs4) hb4 (ix2 p j))
      - Ideal.ofBits .f32 0x40000000#32 * (matmul dot_S512x512_S512x1024_S512x1024_1_0_0_1_n_n none (truncf .bf16 x0 hb)
              (transpose S512x1024 [1, 0] (truncf .bf16 (shapeCast S1024x512 x2 hs2) hb) ht)
              (constant (F := Ideal) S512x1024 .f32 0x00000000#32) (ix2 p j)))
    (Ideal.ofBits .f32 0x00000000#32) = _
  rw [prods_apply x0 x2 hb hs2 ht p j, shapeCast_self, shapeCast_self, shapeCast_self,
    LibColumns.broadcastTo_a1_ab_apply, LibColumns.broadcastTo_a1_ab_apply, broadcastTo_1b_ab_apply,
    iota_single_apply, select_cmpi_eq, Ideal.ofBits_zero_f32]
  rfl

/-- The accumulator after a point, at its one entry: what it held plus the tile's partial sum. -/
theorem step_apply (i : grid0.Coords) (acc : FVec Ideal S1x1 .f32) (u v : Fin 1) :
    Pieces.step (F := Ideal) i x0 x1 x2 x3 x4 acc (ix2 u v)
      = acc (ix2 u v) + tile x0 x1 x2 x3 x4 (BitVec.ofNat 32 (i 0).val * 1024#32) := by
  unfold Pieces.step k0_pay1 k0_pay4
  dsimp only
  refine (congrFun (shapeCast_self _ _) _).trans ?_
  refine congrArg (acc (ix2 u v) + ·) ?_
  refine (LibColumns.shapeCast_a_a1_apply _ _ u v).trans ?_
  refine (colSum_apply _ _ _ _ u).trans ?_
  unfold tile
  refine Finset.sum_congr rfl fun p _ => ?_
  refine (LibColumns.shapeCast_a_a1_apply _ _ p u).trans ?_
  refine (rowSum_apply _ _ _ _ p).trans ?_
  refine Finset.sum_congr rfl fun j _ => ?_
  exact masked_apply x0 x1 x2 x3 x4 _ _ _ _ _ _ _ _ _ p j

/-- The zero the first batch tile stores into the accumulator. -/
theorem zero_apply (y : S1x1.Idx) : k0_pay3 (F := Ideal) y = 0 := by
  unfold k0_pay3
  refine (congrFun (shapeCast_self _ _) _).trans ?_
  exact Ideal.ofBits_zero_f32

/-- The corner test, decided over the 8 × 128 block: row 0 and lane 0. -/
theorem corner_test : ∀ (r : Fin 8) (l : Fin 128),
    IntOp.andi (IntOp.cmpi .eq (BitVec.ofNat 32 r.val) 0#32) (IntOp.cmpi .eq (BitVec.ofNat 32 l.val) 0#32)
      = if r.val = 0 ∧ l.val = 0 then 1#1 else 0#1 := by decide

/-- The output block: the accumulator at the corner, zero elsewhere. -/
theorem corner_apply (v : FVec Ideal S1x1 .f32) (r : Fin 8) (l : Fin 128) :
    k0_pay2 (F := Ideal) v (ix2 r l) = if r.val = 0 ∧ l.val = 0 then v (ix2 (0 : Fin 1) (0 : Fin 1)) else 0 := by
  unfold k0_pay2
  rw [select_apply]
  have hb : ∀ (h1 : S1x1.ShapeCasts S1x1) (h2 : S1x1.Broadcasts S8x128),
      broadcastTo S8x128 (shapeCast S1x1 v h1) h2 (ix2 r l) = v (ix2 (0 : Fin 1) (0 : Fin 1)) := fun h1 h2 => by
    rw [shapeCast_self]
    exact broadcastTo_apply v h2 (ix2 r l) (ix2 (0 : Fin 1) (0 : Fin 1)) fun a => by
      match a with
      | ⟨0, _⟩ => rfl
      | ⟨1, _⟩ => rfl
  have h0 : ∀ h : S8x128.Iotas .tc 32 [0], iota .tc S8x128 32 [0] h (ix2 r l) = BitVec.ofNat 32 r.val :=
    fun h => iota_single_apply .tc S8x128 32 0 h (ix2 r l)
  have h1 : ∀ h : S8x128.Iotas .tc 32 [1], iota .tc S8x128 32 [1] h (ix2 r l) = BitVec.ofNat 32 l.val :=
    fun h => iota_single_apply .tc S8x128 32 1 h (ix2 r l)
  show Scalar.select (IntOp.andi (IntOp.cmpi .eq (iota .tc S8x128 32 [0] _ (ix2 r l)) 0#32)
      (IntOp.cmpi .eq (iota .tc S8x128 32 [1] _ (ix2 r l)) 0#32))
    (broadcastTo S8x128 (shapeCast S1x1 v _) _ (ix2 r l)) (Ideal.ofBits .f32 0x00000000#32) = _
  rw [h0, h1, hb, corner_test, Ideal.ofBits_zero_f32]
  by_cases hc : r.val = 0 ∧ l.val = 0
  · rw [if_pos hc, if_pos hc]; rfl
  · rw [if_neg hc, if_neg hc]; rfl

end Cert.KernelIdeal.TileValue

end
-- ==== Proof.Accum.lean ====
/-
  The accumulator along the grid.

  The 80 grid points run class tile by class tile (ten of them), and within a class tile batch tile by batch tile (eight).
  The accumulator is zeroed at the first batch tile of each class tile and every point adds its tile's partial sum.  So
  after point `n` it holds the sum of the partial sums of the points from the first point of `n`'s class tile, `8·(n/8)`,
  up to `n` — by induction on the point, never by listing the grid.  After the last batch tile of class tile `ci` that is the
  sum over its eight batch tiles.
-/
import proofs.«136891_j29094108463751_2_alg».proof.Proof.TileValue
import Mathlib.Algebra.BigOperators.Intervals

set_option maxRecDepth 16384

noncomputable section

namespace Cert.KernelIdeal.Accum

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The class number of the first centre of point `t`'s class tile, as the body computes it. -/
def base (t : Fin cfg0.N) : BitVec 32 := BitVec.ofNat 32 ((grid0.coords t) 0).val * 1024#32

/-- The partial sum of the tile at point `t`: the tile's sum over the point's input blocks. -/
def tileAt (c : Dev nD) (t : Fin cfg0.N) : EReal :=
  TileValue.tile (iblk m c 0 t) (iblk m c 1 t) (iblk m c 2 t) (iblk m c 3 t) (iblk m c 4 t) (base t)

/-- The same as a function of the point's number, zero past the grid. -/
def tileN (c : Dev nD) (k : ℕ) : EReal := if h : k < cfg0.N then tileAt m c ⟨k, h⟩ else 0

theorem tileN_of_lt (c : Dev nD) (k : ℕ) (h : k < cfg0.N) : tileN m c k = tileAt m c ⟨k, h⟩ := dif_pos h

/-- First batch tile of a class tile: the accumulator ends at the tile's partial sum. -/
theorem acc_first (c : Dev nD) (t : Fin cfg0.N) (h0 : t.val % 8 = 0) (h1 : ¬t.val % 8 = 7) (u v : Fin 1) :
    ((outsAt0 m c t.val t.isLt).2 : FVec Ideal S1x1 .f32) (ix2 u v) = tileAt m c t := by
  rw [outsAt0_A m c t h0 h1]
  dsimp only
  refine (congrFun (Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) (ix2 u v)).trans ?_
  refine (TileValue.step_apply (iblk m c 0 t) (iblk m c 1 t) (iblk m c 2 t) (iblk m c 3 t) (iblk m c 4 t) (grid0.coords t) _ u v).trans ?_
  rw [TileValue.zero_apply, zero_add]
  rfl

/-- A middle batch tile: what the point before left, plus the tile's partial sum. -/
theorem acc_middle (c : Dev nD) (t : Fin cfg0.N) (h0 : ¬t.val % 8 = 0) (h1 : ¬t.val % 8 = 7) (hp : t.val - 1 < cfg0.N) (u v : Fin 1) :
    ((outsAt0 m c t.val t.isLt).2 : FVec Ideal S1x1 .f32) (ix2 u v)
      = ((outsAt0 m c (t.val - 1) hp).2 : FVec Ideal S1x1 .f32) (ix2 u v) + tileAt m c t := by
  rw [outsAt0_B m c t h0 h1]
  dsimp only
  refine (congrFun (Pieces.scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) hp).2) (ix2 u v)).trans ?_
  exact TileValue.step_apply (iblk m c 0 t) (iblk m c 1 t) (iblk m c 2 t) (iblk m c 3 t) (iblk m c 4 t) (grid0.coords t) _ u v

/-- The last batch tile: the same. -/
theorem acc_last (c : Dev nD) (t : Fin cfg0.N) (h0 : ¬t.val % 8 = 0) (h1 : t.val % 8 = 7) (hp : t.val - 1 < cfg0.N) (u v : Fin 1) :
    ((outsAt0 m c t.val t.isLt).2 : FVec Ideal S1x1 .f32) (ix2 u v)
      = ((outsAt0 m c (t.val - 1) hp).2 : FVec Ideal S1x1 .f32) (ix2 u v) + tileAt m c t := by
  rw [outsAt0_C m c t h0 h1]
  dsimp only
  refine (congrFun (Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) hp).2) (ix2 u v)).trans ?_
  exact TileValue.step_apply (iblk m c 0 t) (iblk m c 1 t) (iblk m c 2 t) (iblk m c 3 t) (iblk m c 4 t) (grid0.coords t) _ u v

/-- After point `n` the accumulator holds the partial sums of its class tile's points up to `n`. -/
theorem acc_eq (c : Dev nD) : ∀ (n : ℕ) (hn : n < cfg0.N) (u v : Fin 1),
    ((outsAt0 m c n hn).2 : FVec Ideal S1x1 .f32) (ix2 u v) = ∑ k ∈ Finset.Ico (8 * (n / 8)) (n + 1), tileN m c k := by
  intro n
  induction n with
  | zero =>
    intro hn u v
    refine (acc_first m c ⟨0, hn⟩ rfl (by show ¬(0 : ℕ) % 8 = 7; omega) u v).trans ?_
    rw [show 8 * (0 / 8) = 0 from rfl, Nat.Ico_succ_singleton, Finset.sum_singleton, tileN_of_lt m c 0 hn]
  | succ n ih =>
    intro hn u v
    have hN : cfg0.N = 80 := N_0
    by_cases h0 : (n + 1) % 8 = 0
    · refine (acc_first m c ⟨n + 1, hn⟩ h0 (by show ¬(n + 1) % 8 = 7; omega) u v).trans ?_
      rw [show 8 * ((n + 1) / 8) = n + 1 from by omega, Nat.Ico_succ_singleton, Finset.sum_singleton, tileN_of_lt m c (n + 1) hn]
    · have hp : (⟨n + 1, hn⟩ : Fin cfg0.N).val - 1 < cfg0.N := by show n + 1 - 1 < cfg0.N; omega
      have hprev := ih (Nat.lt_of_succ_lt hn) u v
      have hstep : ((outsAt0 m c (n + 1) hn).2 : FVec Ideal S1x1 .f32) (ix2 u v)
          = ((outsAt0 m c n (Nat.lt_of_succ_lt hn)).2 : FVec Ideal S1x1 .f32) (ix2 u v) + tileAt m c ⟨n + 1, hn⟩ := by
        by_cases h1 : (n + 1) % 8 = 7
        · exact acc_last m c ⟨n + 1, hn⟩ h0 h1 hp u v
        · exact acc_middle m c ⟨n + 1, hn⟩ h0 h1 hp u v
      rw [hstep, hprev, show 8 * ((n + 1) / 8) = 8 * (n / 8) from by omega,
        Finset.sum_Ico_succ_top (show 8 * (n / 8) ≤ n + 1 from by omega), tileN_of_lt m c (n + 1) hn]

/-- The sum of class tile `ci`'s eight partial sums. -/
def classSum (c : Dev nD) (ci : Fin 10) : EReal :=
  ∑ bi : Fin 8, tileAt m c ⟨8 * ci.val + bi.val, by rw [show cfg0.N = 80 from N_0]; omega⟩

/-- After the last batch tile of class tile `ci` the accumulator holds the class tile's sum. -/
theorem acc_class (c : Dev nD) (ci : Fin 10) (hn : 8 * ci.val + 7 < cfg0.N) (u v : Fin 1) :
    ((outsAt0 m c (8 * ci.val + 7) hn).2 : FVec Ideal S1x1 .f32) (ix2 u v) = classSum m c ci := by
  have hN : cfg0.N = 80 := N_0
  rw [acc_eq m c _ hn u v, show 8 * ((8 * ci.val + 7) / 8) = 8 * ci.val from by omega,
    show 8 * ci.val + 7 + 1 = 8 * ci.val + 8 from rfl, Finset.sum_Ico_eq_sum_range,
    show 8 * ci.val + 8 - 8 * ci.val = 8 from by omega]
  unfold classSum
  rw [← Fin.sum_univ_eq_sum_range (fun k => tileN m c (8 * ci.val + k)) 8]
  refine Finset.sum_congr rfl fun bi _ => ?_
  exact tileN_of_lt m c _ _

/-- The same at any point that ends a class tile: after point `n ≡ 7 (mod 8)` the accumulator holds class tile `n / 8`'s sum. -/
theorem acc_flush (c : Dev nD) (n : ℕ) (hn : n < cfg0.N) (h7 : n % 8 = 7) (hq : n / 8 < 10) (u v : Fin 1) :
    ((outsAt0 m c n hn).2 : FVec Ideal S1x1 .f32) (ix2 u v) = classSum m c ⟨n / 8, hq⟩ := by
  obtain ⟨q, rfl⟩ : ∃ q, n = 8 * q + 7 := ⟨n / 8, by omega⟩
  have hq' : q < 10 := by omega
  have e : (⟨(8 * q + 7) / 8, hq⟩ : Fin 10) = ⟨q, hq'⟩ := Fin.ext (by show (8 * q + 7) / 8 = q; omega)
  rw [e]
  exact acc_class m c ⟨q, hq'⟩ hn u v

end Cert.KernelIdeal.Accum

end
-- ==== Proof.OutCover.lean ====
/-
  Where the output window's blocks sit in the output array.

  The output array has 80 rows of 128 lanes.  Point t holds the block of rows 8·(t div 8) … 8·(t div 8) + 7, all
  128 lanes, and the block is written back at the points t ≡ 7 (mod 8), the last point of each class tile.  So an
  index of the array lies in point t's block exactly when its row is in that range; every index lies in the block
  some writing point writes back, namely the point 8·(row div 8) + 7; and entry (r, l) of point t's block is the
  array's entry at row 8·(t div 8) + r, lane l.
-/
import proofs.«136891_j29094108463751_2_alg».proof.Proof.Gen.KernelIdeal.Frame
import Idealize.ShloMosaic.Lib.Pipeline.Value
import Idealize.ShloMosaic.Lib.ValueIdx

set_option maxRecDepth 16384

noncomputable section

namespace Cert.KernelIdeal.OutCover

open Cert.KernelIdeal Cert.KernelIdeal.Gen Idealize.ShloMosaic Idealize.ShloMosaic.TcCoe Idealize.ShloMosaic.ValueIdx
open Idealize.SL.Sem

/-- The output's block index at a point, decided once over the 80 points: class tile t div 8, lane tile 0. -/
theorem idx5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- An index of the array is in point t's block iff each coordinate is in the block's range on its axis. -/
theorem mem_blk5 (t : Fin cfg0.N) (i : S80x128.Idx) :
    i ∈ ((cfg0.win 5).blk t).view.set ↔ ∀ a : Fin 2, win0_5.index t a * S8x128.size a ≤ (i a).val
      ∧ (i a).val < win0_5.index t a * S8x128.size a + S8x128.size a := by
  show i ∈ ((View.whole main_v8).slice (win0_5.rect t)).set ↔ _
  rw [View.set_slice_whole, Rect.mem_set_unit]
  exact Iff.rfl

/-- Every index of the output array is in the block some writing point writes back. -/
theorem cover5 : ∀ i : S80x128.Idx, ∃ t : Fin cfg0.N, (cfg0.win 5).flush t = true ∧ i ∈ ((cfg0.win 5).blk t).view.set := by
  intro i
  have hi0 : (i 0).val < 80 := idx2_lt0 i
  have hi1 : (i 1).val < 128 := idx2_lt1 i
  have hN : cfg0.N = 80 := N_0
  let t : Fin cfg0.N := ⟨8 * ((i 0).val / 8) + 7, by omega⟩
  have ht : t.val = 8 * ((i 0).val / 8) + 7 := rfl
  refine ⟨t, (flush0_5 t).mpr (by omega), ?_⟩
  rw [mem_blk5]
  obtain ⟨e0, e1⟩ := idx5 t
  intro a
  match a with
  | ⟨0, _⟩ =>
    show win0_5.index t (0 : Fin 2) * 8 ≤ (i 0).val ∧ (i 0).val < win0_5.index t (0 : Fin 2) * 8 + 8
    rw [e0]; omega
  | ⟨1, _⟩ =>
    show win0_5.index t (1 : Fin 2) * 128 ≤ (i 1).val ∧ (i 1).val < win0_5.index t (1 : Fin 2) * 128 + 128
    rw [e1]; omega

/-- A row of a block stays inside the array: class tile below 10, row below 8. -/
theorem out_row_lt (t : Fin cfg0.N) (r : Fin 8) : 8 * (t.val / 8) + r.val < 80 := by
  have h80 : t.val < 80 := lt_of_lt_of_eq t.isLt N_0
  have := r.isLt
  omega

/-- Entry (r, l) of the block at point t sits in the array at row 8 · (t div 8) + r, lane l. -/
theorem emb5 (t : Fin cfg0.N) (r : Fin 8) (l : Fin 128) :
    ((cfg0.win 5).blk t).view.emb (ix2 r l)
      = (ix2 (⟨8 * (t.val / 8) + r.val, out_row_lt t r⟩ : Fin 80) l : S80x128.Idx) := by
  funext a
  apply Fin.ext
  match a with
  | ⟨0, _⟩ => show win0_5.index t (0 : Fin 2) * 8 + 1 * r.val = 8 * (t.val / 8) + r.val; rw [(idx5 t).1]; omega
  | ⟨1, _⟩ => show win0_5.index t (1 : Fin 2) * 128 + 1 * l.val = l.val; rw [(idx5 t).2]; omega

/-- The same at a generic index of the block: row 8 · (t div 8) + its row, its own lane. -/
theorem emb5_idx (t : Fin cfg0.N) (y : S8x128.Idx) :
    ((cfg0.win 5).blk t).view.emb y
      = (ix2 (⟨8 * (t.val / 8) + (y 0).val, out_row_lt t (y 0)⟩ : Fin 80) (y 1) : S80x128.Idx) := by
  funext a
  apply Fin.ext
  match a with
  | ⟨0, _⟩ => show win0_5.index t (0 : Fin 2) * 8 + 1 * (y 0).val = 8 * (t.val / 8) + (y 0).val; rw [(idx5 t).1]; omega
  | ⟨1, _⟩ => show win0_5.index t (1 : Fin 2) * 128 + 1 * (y 1).val = (y 1).val; rw [(idx5 t).2]; omega

end Cert.KernelIdeal.OutCover

end
-- ==== Proof.Tail.lean ====
/-
  The four host operations after the region: the kernel's result from its output array.

  After the 80 grid points the output array (80 × 128) holds some values G.  What follows is a total: a zero, the sum
  of every entry of the array added to it, the constant 4096, and the quotient of the two.  At the ideal instance the
  result is therefore  (∑ G) / 4096.
-/
import proofs.«136891_j29094108463751_2_alg».proof.Proof.Gen.KernelIdeal.Frame
import Idealize.ShloMosaic.Lib.ValueIdx
import Idealize.ShloMosaic.PureOps.Ideal.Laws

set_option maxRecDepth 16384

noncomputable section

namespace Cert.KernelIdeal.Tail

open Cert.KernelIdeal Cert.KernelIdeal.Gen Idealize.ShloMosaic Idealize.ShloMosaic.TcCoe Idealize.ShloMosaic.ValueIdx
open Idealize.SL.Sem

/-- The kernel's result: the total of the output array over the batch size. -/
theorem tail_result (m : (ℓ : Loc nD τ sig) → Buf (Elt Ideal) ℓ) (c : Dev nD) (G : S80x128.Idx → EReal)
    (hfin : (dats m 0 c).arrAt 5 cfg0.N = G) :
    Pipeline.afterTail₀ cfgs (dats m) 0 (V0 m) [hostOps1] c main_v10
      = fun _ => Ideal.div (∑ j : S80x128.Idx, G j) (Ideal.ofBits .f32 0x45800000#32) := by
  unfold Pipeline.afterTail₀
  show StableHlo.after hostOps1 _ (Proc.devRef .tc main_v10) = _
  after_results
  have hW : Pipeline.withArrays (cfgs 0).spec c (V0 m c) (fun w => (dats m 0 c).arrAt w (cfgs 0).N)
      (Proc.devRef .tc main_v8) = G :=
    (Pipeline.withArrays_arr spec0 launch0.win.arr_inj c _ _ 5).trans hfin
  rw [hW]
  funext i
  show FloatOps.hostDivf (Host.reduceAdd G (constant S_ .f32 0x00000000#32) reducesTo_S80x128_S_d0_1 h_S_ i)
      (constant (F := Ideal) S_ .f32 0x45800000#32 i) = _
  simp only [Host.reduceAdd, Ideal.hostReduceAdd_def]
  rw [Ideal.hostReduceAdd_total reducesTo_S80x128_S_d0_1 (fun b => b.elim0) G _ i, Ideal.hostDivf_def]
  rw [constant_apply, constant_apply, Ideal.ofBits_zero_f32, zero_add]

end Cert.KernelIdeal.Tail

end
-- ==== Proof.OutArray.lean ====
/-
  The output array after the region, and the kernel's run read as a value.

  The output is 80 × 128: one 8 × 128 block per class tile, written back once, after the class tile's last batch tile.
  That block holds the accumulator — by then the class tile's sum — at its corner and zero elsewhere.  So the array ends
  as ONE function of its index: row 8·ci, lane 0 holds class tile ci's sum; every other entry is zero.  The ten blocks tile
  the array, so this is the whole array.  The host then sums the array and divides by the batch size.
-/
import proofs.«136891_j29094108463751_2_alg».proof.Proof.Accum
import proofs.«136891_j29094108463751_2_alg».proof.Proof.OutCover
import proofs.«136891_j29094108463751_2_alg».proof.Proof.Tail

set_option maxRecDepth 16384

noncomputable section

namespace Cert.KernelIdeal.OutArray

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output array after the region: class tile ci's sum at row 8·ci, lane 0; zero everywhere else. -/
def outG (c : Dev nD) : S80x128.Idx → EReal := fun j =>
  if (j 0).val % 8 = 0 ∧ (j 1).val = 0 then Accum.classSum m c ⟨(j 0).val / 8, by have := idx2_lt0 j; omega⟩ else 0

/-- Inside class tile `t / 8`'s block: the class tile's sum at the corner, zero elsewhere. -/
theorem outG_block (c : Dev nD) (t : Fin cfg0.N) (hq : t.val / 8 < 10) (r : Fin 8) (l : Fin 128) :
    outG m c (ix2 (⟨8 * (t.val / 8) + r.val, OutCover.out_row_lt t r⟩ : Fin 80) l)
      = if r.val = 0 ∧ l.val = 0 then Accum.classSum m c ⟨t.val / 8, hq⟩ else 0 := by
  have hr := r.isLt
  unfold outG
  show (if (8 * (t.val / 8) + r.val) % 8 = 0 ∧ l.val = 0 then
      Accum.classSum m c ⟨(8 * (t.val / 8) + r.val) / 8, _⟩ else 0) = _
  by_cases h : r.val = 0 ∧ l.val = 0
  · rw [if_pos h, if_pos ⟨by omega, h.2⟩]
    exact congrArg (Accum.classSum m c) (Fin.ext (by show (8 * (t.val / 8) + r.val) / 8 = t.val / 8; omega))
  · rw [if_neg h, if_neg (fun h' => h ⟨by omega, h'.2⟩)]

/-- At a point that ends a class tile, the accumulator the body has just written is the class tile's sum. -/
theorem step_last (c : Dev nD) (t : Fin cfg0.N) (h0 : ¬t.val % 8 = 0) (h1 : t.val % 8 = 7) (hp : t.val - 1 < cfg0.N)
    (hq : t.val / 8 < 10) (u v : Fin 1) :
    Pieces.step (F := Ideal) (grid0.coords t) (iblk m c 0 t) (iblk m c 1 t) (iblk m c 2 t) (iblk m c 3 t) (iblk m c 4 t)
        (outsAt0 m c (t.val - 1) hp).2 (ix2 u v) = Accum.classSum m c ⟨t.val / 8, hq⟩ := by
  refine Eq.trans ?_ (Accum.acc_flush m c t.val t.isLt h1 hq u v)
  rw [outsAt0_C m c t h0 h1]
  dsimp only
  exact (congrFun (Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) hp).2) (ix2 u v)).symm

/-- WHAT A FLUSHING POINT WRITES BACK is its block of `outG`. -/
theorem flushed_eq (c : Dev nD) (t : Fin cfg0.N) (hf : (cfg0.win 5).flush t = true) :
    (dats m 0 c).flushed 5 t = ((cfg0.win 5).blk t).view.read (Elt Ideal) (outG m c) := by
  have hN : cfg0.N = 80 := N_0
  have ht := t.isLt
  have h1 : t.val % 8 = 7 := (flush0_5 t).mp hf
  have h0 : ¬t.val % 8 = 0 := by omega
  have hp : t.val - 1 < cfg0.N := by omega
  have hq : t.val / 8 < 10 := by omega
  have key : ∀ y : S8x128.Idx,
      k0_pay2 (F := Ideal) (Pieces.step (F := Ideal) (grid0.coords t) (iblk m c 0 t) (iblk m c 1 t) (iblk m c 2 t) (iblk m c 3 t)
        (iblk m c 4 t) (outsAt0 m c (t.val - 1) hp).2) y = outG m c (((cfg0.win 5).blk t).view.emb y) := by
    intro y
    obtain ⟨r, l, rfl⟩ : ∃ (r : Fin 8) (l : Fin 128), y = ix2 r l := ⟨y 0, y 1, eq_ix2 y⟩
    rw [TileValue.corner_apply, OutCover.emb5 t r l, outG_block m c t hq r l, step_last m c t h0 h1 hp hq]
  show (cfg0.win 5).cut (grid0.coords t) ((dats m 0 c).after 5 t) = _
  rw [after0_5, outsAt0_C m c t h0 h1]
  dsimp only
  rw [Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) hp).2]
  exact funext key

/-- THE ARRAY after the region is `outG`: the ten flushed blocks cover it. -/
theorem final (c : Dev nD) : (dats m 0 c).arrAt 5 cfg0.N = outG m c :=
  (dats m 0 c).arrAt_eq_of_cover 5 (outG m c) (flushed_eq m c) OutCover.cover5

/-- The kernel's run, read: the result is the output array's total over the batch size, and the arguments are unchanged. -/
theorem run : θ_run defs (onTc (τ := τ) (main (F := Ideal))) ⟨m, fun _ => 0, ρ⟩ fun r => ∀ c : Dev nD,
      r.2.mem ((c.tc : Thread nD τ).loc main_v10)
          = (fun _ => Ideal.div (∑ j : S80x128.Idx, outG m c j) (Ideal.ofBits .f32 0x45800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v10 (Pipeline.mem_restRefs_of main_v10 (by decide) (by decide))).trans (Tail.tail_result m c (outG m c) (final m c)),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.OutArray

end
-- ==== Proof.Blocks.lean ====
/-
  The input blocks of the kernel, read off their arrays.

  The grid has 80 points; point t works on batch tile t mod 8 (512 samples) and class tile t div 8 (1024 classes).
  Each of the five input windows hands the body a block of its array, and the entry of a block at a position inside
  it is the array's entry at  (tile offset + position):  rows 512·(t mod 8) + p  for the samples, their labels and
  their squared norms;  rows 1024·(t div 8) + j  for the centres;  columns 1024·(t div 8) + j  for the centres'
  squared norms.
-/
import proofs.«136891_j29094108463751_2_alg».proof.Proof.Gen.KernelIdeal.Frame
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem

variable {F : FTy → Type} [FloatOps F] (m : (ℓ : Loc nD τ sig) → Buf (Elt F) ℓ)

/-! ## Which tile each window reads at a point: decided once over the 80 points -/

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = t.val % 8 ∧ win0_3.index t 1 = 0 :=
  (by decide +kernel : ∀ t : Fin grid0.N, win0_3.index t 0 = t.val % 8 ∧ win0_3.index t 1 = 0)
theorem idx4 : ∀ t : Fin cfg0.N, win0_4.index t 0 = 0 ∧ win0_4.index t 1 = t.val / 8 :=
  (by decide +kernel : ∀ t : Fin grid0.N, win0_4.index t 0 = 0 ∧ win0_4.index t 1 = t.val / 8)

/-! ## The rows and columns stay inside the arrays -/

/-- A sample row: batch tile below 8, position below 512. -/
theorem row_lt (t : Fin cfg0.N) (p : Fin 512) : 512 * (t.val % 8) + p.val < 4096 := by
  have := p.isLt
  omega

/-- A centre row (or a column of the centres' squared norms): class tile below 10, position below 1024. -/
theorem col_lt (t : Fin cfg0.N) (j : Fin 1024) : 1024 * (t.val / 8) + j.val < 10240 := by
  have h80 : t.val < 80 := lt_of_lt_of_eq t.isLt N_0
  have := j.isLt
  omega

/-! ## The blocks -/

/-- The samples' block. -/
theorem blk_x (c : Dev nD) (t : Fin cfg0.N) (p : Fin 512) (k : Fin 512) :
    (iblk m c 0 t : S512x512.Idx → Elt F .f32) (ix2 p k)
      = (V m c main_arg0 : S4096x512.Idx → Elt F .f32) (ix2 (⟨512 * (t.val % 8) + p.val, row_lt t p⟩ : Fin 4096) k) := by
  unfold iblk
  rw [View.read_apply]
  show V m c main_arg0 _ = V m c main_arg0 _
  refine congrArg (V m c main_arg0) ?_
  funext a
  apply Fin.ext
  match a with
  | ⟨0, _⟩ => show win0_0.index t 0 * 512 + 1 * p.val = 512 * (t.val % 8) + p.val; rw [(idx0 t).1]; omega
  | ⟨1, _⟩ => show win0_0.index t 1 * 512 + 1 * k.val = k.val; rw [(idx0 t).2]; omega

/-- The labels' block. -/
theorem blk_lab (c : Dev nD) (t : Fin cfg0.N) (p : Fin 512) (u : Fin 1) :
    (iblk m c 1 t : S512x1.Idx → BitVec 32) (ix2 p u)
      = (V m c main_v1 : S4096x1.Idx → BitVec 32) (ix2 (⟨512 * (t.val % 8) + p.val, row_lt t p⟩ : Fin 4096) u) := by
  unfold iblk
  rw [View.read_apply]
  show V m c main_v1 _ = V m c main_v1 _
  refine congrArg (V m c main_v1) ?_
  funext a
  apply Fin.ext
  match a with
  | ⟨0, _⟩ => show win0_1.index t 0 * 512 + 1 * p.val = 512 * (t.val % 8) + p.val; rw [(idx1 t).1]; omega
  | ⟨1, _⟩ => show win0_1.index t 1 * 1 + 1 * u.val = u.val; rw [(idx1 t).2]; omega

/-- The centres' block. -/
theorem blk_cen (c : Dev nD) (t : Fin cfg0.N) (j : Fin 1024) (k : Fin 512) :
    (iblk m c 2 t : S1024x512.Idx → Elt F .f32) (ix2 j k)
      = (V m c main_v0 : S10240x512.Idx → Elt F .f32) (ix2 (⟨1024 * (t.val / 8) + j.val, col_lt t j⟩ : Fin 10240) k) := by
  unfold iblk
  rw [View.read_apply]
  show V m c main_v0 _ = V m c main_v0 _
  refine congrArg (V m c main_v0) ?_
  funext a
  apply Fin.ext
  match a with
  | ⟨0, _⟩ => show win0_2.index t 0 * 1024 + 1 * j.val = 1024 * (t.val / 8) + j.val; rw [(idx2 t).1]; omega
  | ⟨1, _⟩ => show win0_2.index t 1 * 512 + 1 * k.val = k.val; rw [(idx2 t).2]; omega

/-- The block of the samples' squared norms. -/
theorem blk_xsq (c : Dev nD) (t : Fin cfg0.N) (p : Fin 512) (u : Fin 1) :
    (iblk m c 3 t : S512x1.Idx → Elt F .f32) (ix2 p u)
      = (V m c main_v4 : S4096x1.Idx → Elt F .f32) (ix2 (⟨512 * (t.val % 8) + p.val, row_lt t p⟩ : Fin 4096) u) := by
  unfold iblk
  rw [View.read_apply]
  show V m c main_v4 _ = V m c main_v4 _
  refine congrArg (V m c main_v4) ?_
  funext a
  apply Fin.ext
  match a with
  | ⟨0, _⟩ => show win0_3.index t 0 * 512 + 1 * p.val = 512 * (t.val % 8) + p.val; rw [(idx3 t).1]; omega
  | ⟨1, _⟩ => show win0_3.index t 1 * 1 + 1 * u.val = u.val; rw [(idx3 t).2]; omega

/-- The block of the centres' squared norms. -/
theorem blk_csq (c : Dev nD) (t : Fin cfg0.N) (u : Fin 1) (j : Fin 1024) :
    (iblk m c 4 t : S1x1024.Idx → Elt F .f32) (ix2 u j)
      = (V m c main_v7 : S1x10240.Idx → Elt F .f32) (ix2 u (⟨1024 * (t.val / 8) + j.val, col_lt t j⟩ : Fin 10240)) := by
  unfold iblk
  rw [View.read_apply]
  show V m c main_v7 _ = V m c main_v7 _
  refine congrArg (V m c main_v7) ?_
  funext a
  apply Fin.ext
  match a with
  | ⟨0, _⟩ => show win0_4.index t 0 * 1 + 1 * u.val = u.val; rw [(idx4 t).1]; omega
  | ⟨1, _⟩ => show win0_4.index t 1 * 1024 + 1 * j.val = 1024 * (t.val / 8) + j.val; rw [(idx4 t).2]; omega

end Cert.KernelIdeal.Blocks

end
-- ==== Proof.Entry.lean ====
/-
  The arrays the kernel's region reads, as the host operations before it leave them, read at an index.

  Before the region the program appends 240 rows to the 10000 x 512 centres `C` (each new entry the float of the
  integer 0), casts the 4096 labels `L` to a 4096 x 1 column, and forms two squared norms: the row sums of `X * X`
  over the 512 features as a 4096 x 1 column, and the row sums of the square of the padded centres as a 1 x 10240 row,
  each sum taken from the initial value zero. Read at an index, with `X`, `L`, `C` the launch arrays:

  * the label column at `(b, 0)` is `L b` (`V_labels`);
  * the first squared-norm column at `(b, 0)` is `∑ k, X (b, k) * X (b, k)` (`V_xsq`);
  * the padded centres at `(cc, k)` with `cc < 10000` are `C (cc, k)` (`V_cpad`);
  * the second squared-norm row at `(0, cc)` with `cc < 10000` is `∑ k, C (cc, k) * C (cc, k)` (`V_csq`).
-/
import proofs.«136891_j29094108463751_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost
import Idealize.ShloMosaic.PureOps.Ideal.Laws

noncomputable section

namespace Cert.KernelIdeal.Entry

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-! ## The launch arrays

Core `c`'s samples, labels and centres as the launch memory holds them, at their array types. -/

/-- The samples: 4096 rows of 512 features. -/
abbrev argX (c : Dev nD) : FVec Ideal S4096x512 .f32 := m ((c : Thread nD τ).loc main_arg0)
/-- The labels: 4096 words of 32 bits. -/
abbrev argL (c : Dev nD) : IVec S4096 32 := m ((c : Thread nD τ).loc main_arg1)
/-- The centres: 10000 rows of 512 features. -/
abbrev argC (c : Dev nD) : FVec Ideal S10000x512 .f32 := m ((c : Thread nD τ).loc main_arg2)

/-! ## What the host operations before the region leave in the arrays the region reads

Each array as the operations' pure term of the launch memory. -/

/-- The centres with 240 rows of the padding value (the float of the integer 0) appended: 10240 rows of 512. -/
def cpad (C : FVec Ideal S10000x512 .f32) : FVec Ideal S10240x512 .f32 :=
  pad S10240x512 ![0, 0] ![240, 0] ![0, 0] C (sitofp (F := Ideal) .f32 (constantI S_ 32 0#32))
    pads_S10000x512_S10240x512_02400_000 h_S_

/-- The labels as the region finds them: the launch labels cast to a column. -/
theorem V_main_v1_eq (c : Dev nD) :
    (V m c main_v1 : S4096x1.Idx → BitVec 32)
      = shapeCast S4096x1 (argL m c) shapeCasts_S4096_S4096x1 := by
  dsimp only [Gen.V, Gen.V0]
  simp only [Gen.hostOps0, Gen.hostOps0_1, Gen.hostOps0_2, List.flatten_cons, List.flatten_nil, List.append_nil,
    List.cons_append, List.nil_append]
  after_results <;> rfl

/-- The samples' squared norms as the region finds them: the row sums of the squares, from zero, as a column. -/
theorem V_main_v4_eq (c : Dev nD) :
    (V m c main_v4 : S4096x1.Idx → EReal)
      = broadcastInDim S4096x1 ![0] bcast_S4096_S4096x1_0
          (Host.reduceAdd (F := Ideal)
            (mulf (F := Ideal) (argX m c)
              (argX m c))
            (constant (F := Ideal) S_ .f32 0x00000000#32) reducesTo_S4096x512_S4096_d1 h_S_) := by
  dsimp only [Gen.V, Gen.V0]
  simp only [Gen.hostOps0, Gen.hostOps0_1, Gen.hostOps0_2, List.flatten_cons, List.flatten_nil, List.append_nil,
    List.cons_append, List.nil_append]
  after_results <;> rfl

/-- The padded centres as the region finds them. -/
theorem V_main_v0_eq (c : Dev nD) :
    (V m c main_v0 : S10240x512.Idx → EReal) = cpad (argC m c) := by
  dsimp only [Gen.V, Gen.V0]
  simp only [Gen.hostOps0, Gen.hostOps0_1, Gen.hostOps0_2, List.flatten_cons, List.flatten_nil, List.append_nil,
    List.cons_append, List.nil_append]
  after_results <;> rfl

/-- The padded centres' squared norms as the region finds them: the row sums of the squares, from zero, as a row. -/
theorem V_main_v7_eq (c : Dev nD) :
    (V m c main_v7 : S1x10240.Idx → EReal)
      = broadcastInDim S1x10240 ![1] bcast_S10240_S1x10240_1
          (Host.reduceAdd (F := Ideal)
            (mulf (F := Ideal) (cpad (argC m c))
              (cpad (argC m c)))
            (constant (F := Ideal) S_ .f32 0x00000000#32) reducesTo_S10240x512_S10240_d1 h_S_) := by
  dsimp only [Gen.V, Gen.V0]
  simp only [Gen.hostOps0, Gen.hostOps0_1, Gen.hostOps0_2, List.flatten_cons, List.flatten_nil, List.append_nil,
    List.cons_append, List.nil_append]
  after_results <;> rfl

/-! ## The operations read at an index -/

/-- Below row 10000 the padded centres are the centres. -/
theorem cpad_apply (C : FVec Ideal S10000x512 .f32) (cc : Fin 10240) (k : Fin 512) (h : cc.val < 10000) :
    cpad C (ix2 cc k) = C (ix2 (⟨cc.val, h⟩ : Fin 10000) k) := by
  unfold cpad
  refine pad_apply_of_inside _ _ _ C _ pads_S10000x512_S10240x512_02400_000 h_S_ (ix2 cc k) (ix2 (⟨cc.val, h⟩ : Fin 10000) k)
    fun a => ?_
  match a with
  | ⟨0, _⟩ => show cc.val = 0 + cc.val * (0 + 1); omega
  | ⟨1, _⟩ => show k.val = 0 + k.val * (0 + 1); omega

/-- The sum over the 512 columns of a 4096 x 512 array from a zero initial value, at row `b`, is the sum of row `b`. -/
theorem rowSum4096_apply (y : FVec Ideal S4096x512 .f32) (b : Fin 4096) :
    Host.reduceAdd (F := Ideal) y (constant (F := Ideal) S_ .f32 0x00000000#32) reducesTo_S4096x512_S4096_d1 h_S_ (ix1 b)
      = ∑ k : Fin 512, y (ix2 b k) := by
  simp only [Host.reduceAdd, Ideal.hostReduceAdd_def]
  rw [Ideal.hostReduceAdd_single reducesTo_S4096x512_S4096_d1 (by decide), constant_apply, Ideal.ofBits_zero_f32, zero_add]
  refine Finset.sum_congr rfl fun k _ => ?_
  exact congrArg y (funext fun a => Fin.ext (by match a with | ⟨0, _⟩ => rfl | ⟨1, _⟩ => rfl))

/-- The sum over the 512 columns of a 10240 x 512 array from a zero initial value, at row `cc`, is the sum of row `cc`. -/
theorem rowSum10240_apply (y : FVec Ideal S10240x512 .f32) (cc : Fin 10240) :
    Host.reduceAdd (F := Ideal) y (constant (F := Ideal) S_ .f32 0x00000000#32) reducesTo_S10240x512_S10240_d1 h_S_ (ix1 cc)
      = ∑ k : Fin 512, y (ix2 cc k) := by
  simp only [Host.reduceAdd, Ideal.hostReduceAdd_def]
  rw [Ideal.hostReduceAdd_single reducesTo_S10240x512_S10240_d1 (by decide), constant_apply, Ideal.ofBits_zero_f32, zero_add]
  refine Finset.sum_congr rfl fun k _ => ?_
  exact congrArg y (funext fun a => Fin.ext (by match a with | ⟨0, _⟩ => rfl | ⟨1, _⟩ => rfl))

/-- A vector of 4096 values spread as a 4096 x 1 column reads, at row `b`, the vector at `b`. -/
theorem column_apply {α : Type} (y : S4096.Idx → α) (b : Fin 4096) (u : Fin 1) :
    broadcastInDim S4096x1 ![0] bcast_S4096_S4096x1_0 y (ix2 b u) = y (ix1 b) :=
  broadcastInDim_apply _ bcast_S4096_S4096x1_0 y (ix2 b u) (ix1 b) (fun a => match a with
    | ⟨0, _⟩ => by show b.val = if (4096 : Nat) = 1 then 0 else b.val; rw [if_neg (by decide)])

/-- A vector of 10240 values spread as a 1 x 10240 row reads, at column `cc`, the vector at `cc`. -/
theorem row_apply {α : Type} (y : S10240.Idx → α) (u : Fin 1) (cc : Fin 10240) :
    broadcastInDim S1x10240 ![1] bcast_S10240_S1x10240_1 y (ix2 u cc) = y (ix1 cc) :=
  broadcastInDim_apply _ bcast_S10240_S1x10240_1 y (ix2 u cc) (ix1 cc) (fun a => match a with
    | ⟨0, _⟩ => by show cc.val = if (10240 : Nat) = 1 then 0 else cc.val; rw [if_neg (by decide)])

/-! ## The arrays the region finds, at an index -/

/-- The label column at row `b` is the launch label of sample `b`. -/
theorem V_labels (c : Dev nD) (b : Fin 4096) (u : Fin 1) :
    @Eq (BitVec 32) (V m c main_v1 (ix2 b u)) (argL m c (ix1 b)) := by
  rw [V_main_v1_eq]
  refine shapeCast_apply _ shapeCasts_S4096_S4096x1 _ _ ?_
  have hu : u.val = 0 := by omega
  rw [Shape.rowMajor_val_two, Shape.rowMajor_val_one]
  show b.val = b.val * 1 + u.val
  omega

/-- The squared-norm column at row `b` is the sum of the squares of sample `b`'s 512 features. -/
theorem V_xsq (c : Dev nD) (b : Fin 4096) (u : Fin 1) :
    @Eq EReal (V m c main_v4 (ix2 b u)) (∑ k : Fin 512, argX m c (ix2 b k) * argX m c (ix2 b k)) := by
  rw [V_main_v4_eq, column_apply, rowSum4096_apply]
  rfl

/-- Below row 10000 the padded centres the region finds are the launch centres. -/
theorem V_cpad (c : Dev nD) (cc : Fin 10240) (k : Fin 512) (h : cc.val < 10000) :
    @Eq EReal (V m c main_v0 (ix2 cc k)) (argC m c (ix2 (⟨cc.val, h⟩ : Fin 10000) k)) := by
  rw [V_main_v0_eq, cpad_apply _ cc k h]

/-- Below column 10000 the squared-norm row at column `cc` is the sum of the squares of centre `cc`'s 512 features. -/
theorem V_csq (c : Dev nD) (cc : Fin 10240) (u : Fin 1) (h : cc.val < 10000) :
    @Eq EReal (V m c main_v7 (ix2 u cc))
      (∑ k : Fin 512, argC m c (ix2 (⟨cc.val, h⟩ : Fin 10000) k) * argC m c (ix2 (⟨cc.val, h⟩ : Fin 10000) k)) := by
  rw [V_main_v7_eq, row_apply, rowSum10240_apply]
  refine Finset.sum_congr rfl fun k _ => ?_
  rw [mulf_apply, cpad_apply _ cc k h]

end Cert.KernelIdeal.Entry
-- ==== Proof.Spec.lean ====
/-
  The centre loss of a batch: the mean, over the 4096 samples, of each sample's squared distance to the centre of its
  own class, the squared distance expanded as  ‖x_b‖² + ‖c‖² − 2·⟨x_b, c⟩.

  Everything is an extended real, every operation the exact one.  The samples are the rows of `X` (4096 × 512), the
  centres the rows of `C` (10000 × 512), and `L b` is sample `b`'s label, a 32-bit word.  A sample contributes the
  distance to centre `c` exactly when its label is the word of `c`; there is at most one such `c` among the 10000
  classes, and none when the label names no class.
-/
import Idealize.ShloMosaic.PureOps.Ideal
import Idealize.ShloMosaic.Lib.ValueIdx

noncomputable section

namespace Cert.CenterLoss

open Idealize.ShloMosaic Idealize.ShloMosaic.ValueIdx

/-- The samples, the labels and the centres as arrays. -/
abbrev SX : Shape := ⟨2, ![4096, 512]⟩
abbrev SLab : Shape := ⟨1, ![4096]⟩
abbrev SCen : Shape := ⟨2, ![10000, 512]⟩

variable (X : FVec Ideal SX .f32) (L : IVec SLab 32) (C : FVec Ideal SCen .f32)

/-- ‖x_b‖²: the sum of the squares of sample `b`'s 512 features. -/
def sqNormX (b : Fin 4096) : EReal := ∑ k : Fin 512, X (ix2 b k) * X (ix2 b k)

/-- ‖c‖²: the sum of the squares of centre `c`'s 512 features. -/
def sqNormC (c : Fin 10000) : EReal := ∑ k : Fin 512, C (ix2 c k) * C (ix2 c k)

/-- ⟨x_b, c⟩: the inner product of sample `b` with centre `c`. -/
def inner (b : Fin 4096) (c : Fin 10000) : EReal := ∑ k : Fin 512, X (ix2 b k) * C (ix2 c k)

/-- The number two, as the float word both programs carry. -/
def two : EReal := Ideal.ofBits .f32 0x40000000#32

/-- The batch size 4096, as the float word both programs divide by. -/
def count : EReal := Ideal.ofBits .f32 0x45800000#32

/-- The squared distance of sample `b` to centre `c`, expanded. -/
def dist (b : Fin 4096) (c : Fin 10000) : EReal := (sqNormX X b + sqNormC C c) - two * inner X C b c

/-- What the pair (sample `b`, class `c`) contributes: the distance when `c` is the sample's own class, else nothing. -/
def own (b : Fin 4096) (c : Fin 10000) : EReal := if L (ix1 b) = BitVec.ofNat 32 c.val then dist X C b c else 0

/-- The centre loss: the contributions of all pairs, summed, over the batch size. -/
def loss : EReal := Ideal.div (∑ b : Fin 4096, ∑ c : Fin 10000, own X L C b c) count

end Cert.CenterLoss

end
-- ==== Proof.Terms.lean ====
/-
  What one (sample, padded class) pair contributes to the loss, and that a tile's term is that pair's.

  For sample `b` and padded class `cc` (below 10240) the pair contributes, when the label of `b` is the word of `cc`,
  the expanded squared distance  (‖x_b‖² + ‖c_cc‖²) − 2·⟨x_b, c_cc⟩  read off the arrays the region finds (the two
  squared-norm arrays and the padded centres), and zero otherwise (`pairTerm`).

  * At grid point `t` the term of position `(p, j)` of the tile is the pair's term for sample `512·(t mod 8) + p` and
    class `1024·(t div 8) + j`: the blocks are the arrays at the tile offsets, and the class word
    `(t div 8)·1024 + j`, computed on 32-bit words, is the word of the number `1024·(t div 8) + j` (`term_eq`).
  * Below class 10000 the pair's term is the reference's contribution of the pair (`pairTerm_low`).
  * From class 10000 on it is zero once the label is below 10000: the word of a number below 2³² is that number, so a
    label equal to it would be at least 10000 (`pairTerm_high`).
-/
import proofs.«136891_j29094108463751_2_alg».proof.Proof.TileValue
import proofs.«136891_j29094108463751_2_alg».proof.Proof.Blocks
import proofs.«136891_j29094108463751_2_alg».proof.Proof.Entry
import proofs.«136891_j29094108463751_2_alg».proof.Proof.Spec

set_option maxRecDepth 16384

noncomputable section

namespace Cert.KernelIdeal.Terms

open Cert.KernelIdeal Cert.KernelIdeal.Gen Idealize.ShloMosaic Idealize.ShloMosaic.TcCoe Idealize.ShloMosaic.ValueIdx
open Idealize.SL.Sem

/-! ## The pair's term over arrays -/

/-- The contribution of sample `b` and padded class `cc`, over the five arrays: the labels `L`, the samples `X`, the
    padded centres `P`, the samples' squared norms `xs` (a column) and the padded centres' squared norms `cs` (a row). -/
def pairOf (X : FVec Ideal S4096x512 .f32) (L : IVec S4096 32) (P : FVec Ideal S10240x512 .f32)
    (xs : FVec Ideal S4096x1 .f32) (cs : FVec Ideal S1x10240 .f32) (b : Fin 4096) (cc : Fin 10240) : EReal :=
  if L (ix1 b) = BitVec.ofNat 32 cc.val then
    (xs (ix2 b (0 : Fin 1)) + cs (ix2 (0 : Fin 1) cc))
      - Ideal.ofBits .f32 0x40000000#32 * ∑ k : Fin 512, X (ix2 b k) * P (ix2 cc k)
  else 0

/-- A tile's term with every read named: when the label read is `lab`, the class word is `cls`, the two squared norms
    read are `a` and `b`, and the products read are `f k`, the term is the `if` on `lab = cls` over those. -/
theorem term_congr (x0 : FVec Ideal S512x512 .f32) (x1 : IVec S512x1 32) (x2 : FVec Ideal S1024x512 .f32)
    (x3 : FVec Ideal S512x1 .f32) (x4 : FVec Ideal S1x1024 .f32) (base : BitVec 32) (p : Fin 512) (j : Fin 1024)
    (lab cls : BitVec 32) (a b : EReal) (f : Fin 512 → EReal)
    (h1 : x1 (ix2 p (0 : Fin 1)) = lab) (hc : base + BitVec.ofNat 32 j.val = cls)
    (h3 : x3 (ix2 p (0 : Fin 1)) = a) (h4 : x4 (ix2 (0 : Fin 1) j) = b)
    (h02 : ∀ k : Fin 512, x0 (ix2 p k) * x2 (ix2 j k) = f k) :
    TileValue.term x0 x1 x2 x3 x4 base p j
      = if lab = cls then (a + b) - Ideal.ofBits .f32 0x40000000#32 * ∑ k : Fin 512, f k else 0 := by
  unfold TileValue.term
  rw [h1, hc, h3, h4, Finset.sum_congr rfl fun k _ => h02 k]

/-- The class word: on 32-bit words, `q · 1024 + j` is the word of the number `1024 · q + j` (both sides modulo 2³²). -/
theorem classWord (q j : ℕ) : BitVec.ofNat 32 q * 1024#32 + BitVec.ofNat 32 j = BitVec.ofNat 32 (1024 * q + j) := by
  rw [BitVec.ofNat_add, BitVec.ofNat_mul, BitVec.mul_comm (BitVec.ofNat 32 1024)]

/-- The first coordinate of grid point `t` is the class tile `t div 8`: decided over the 80 points. -/
theorem coord0 : ∀ t : Fin cfg0.N, ((grid0.coords t) 0).val = t.val / 8 :=
  (by decide +kernel : ∀ t : Fin grid0.N, ((grid0.coords t) 0).val = t.val / 8)

variable (m : (ℓ : Loc nD τ sig) → Buf (Elt Ideal) ℓ)

/-! ## The pair's term on the arrays the region finds -/

/-- What sample `b` and padded class `cc` contribute. -/
def pairTerm (c : Dev nD) (b : Fin 4096) (cc : Fin 10240) : EReal :=
  pairOf (Entry.argX m c) (Entry.argL m c) (V m c main_v0) (V m c main_v4) (V m c main_v7) b cc

/-- At grid point `t`, the tile's term at `(p, j)` is the pair's term of sample `512·(t mod 8) + p` and class
    `1024·(t div 8) + j`. -/
theorem term_eq (c : Dev nD) (t : Fin cfg0.N) (p : Fin 512) (j : Fin 1024) :
    TileValue.term (iblk m c 0 t) (iblk m c 1 t) (iblk m c 2 t) (iblk m c 3 t) (iblk m c 4 t)
        (BitVec.ofNat 32 ((grid0.coords t) 0).val * 1024#32) p j
      = pairTerm m c ⟨512 * (t.val % 8) + p.val, Blocks.row_lt t p⟩ ⟨1024 * (t.val / 8) + j.val, Blocks.col_lt t j⟩ := by
  unfold pairTerm pairOf
  refine term_congr (iblk m c 0 t) (iblk m c 1 t) (iblk m c 2 t) (iblk m c 3 t) (iblk m c 4 t) _ p j _ _ _ _ _
    ?_ ?_ ?_ ?_ ?_
  · exact (Blocks.blk_lab m c t p 0).trans (Entry.V_labels m c _ 0)
  · rw [coord0 t]; exact classWord _ _
  · exact Blocks.blk_xsq m c t p 0
  · exact Blocks.blk_csq m c t 0 j
  · intro k
    rw [Blocks.blk_x m c t p k, Blocks.blk_cen m c t j k, Gen.V_main_arg0 m c]

/-- Below class 10000 the pair's term is the reference's contribution of the pair. -/
theorem pairTerm_low (c : Dev nD) (b : Fin 4096) (cl : Fin 10000) :
    pairTerm m c b ⟨cl.val, by omega⟩
      = Cert.CenterLoss.own (Entry.argX m c) (Entry.argL m c) (Entry.argC m c) b cl := by
  unfold pairTerm pairOf Cert.CenterLoss.own Cert.CenterLoss.dist Cert.CenterLoss.sqNormX Cert.CenterLoss.sqNormC
    Cert.CenterLoss.inner Cert.CenterLoss.two
  have hP : ∀ k : Fin 512,
      @Eq EReal (V m c main_v0 (ix2 (⟨cl.val, by omega⟩ : Fin 10240) k)) (Entry.argC m c (ix2 cl k)) :=
    fun k => Entry.V_cpad m c ⟨cl.val, by omega⟩ k cl.isLt
  rw [Entry.V_xsq m c b 0, Entry.V_csq m c ⟨cl.val, by omega⟩ 0 cl.isLt]
  simp only [hP]

/-- From class 10000 on the pair's term is zero when the label is below 10000. -/
theorem pairTerm_high (c : Dev nD) (b : Fin 4096) (cc : Fin 10240) (hL : (Entry.argL m c (ix1 b)).toNat < 10000)
    (hc : 10000 ≤ cc.val) : pairTerm m c b cc = 0 := by
  unfold pairTerm pairOf
  refine if_neg fun he => ?_
  have h2 := congrArg BitVec.toNat he
  rw [BitVec.toNat_ofNat] at h2
  have := cc.isLt
  omega

end Cert.KernelIdeal.Terms
-- ==== Proof.LibTiledSum.lean ====
/-
  Finite sums in an additive commutative monoid, regrouped by tiles.

  * A sum over `a * b` indices is the sum over `a` tiles of the sums over the `b` indices of each tile, index `r`
    of tile `t` being `b * t + r` (`sum_fin_mul`).
  * A double sum over `(a * b) × (c * d)` cut into `a × c` tiles of `b × d` and summed tile by tile, the column
    tiles outermost, is the plain double sum (`sum_tiles_mul`; at `4096 = 8 · 512` rows and `10240 = 10 · 1024`
    columns, `sum_tiles`).
  * A sum over `n + k` indices whose last `k` terms vanish is the sum of the first `n` terms (`sum_drop_tail`; at
    `10240 = 10000 + 240`, `sum_drop_pad`).
  * An `80 × 128` array that vanishes except at column `0` of the rows `8 t`, where it holds `acc t`, sums to
    `∑ t, acc t` (`sum_corners`).
-/
import Idealize.ShloMosaic.Lib.ValueIdx
import Mathlib.Algebra.BigOperators.Fin
import Mathlib.Data.Fintype.BigOperators
import Mathlib.Logic.Equiv.Fin.Basic
import Mathlib.Tactic

open scoped BigOperators
open Idealize.ShloMosaic Idealize.ShloMosaic.ValueIdx

namespace Cert.LibTiledSum

variable {M : Type*} [AddCommMonoid M]

/-! ## One axis cut into tiles -/

/-- Index `r` of tile `t`, among `a` tiles of `b` indices each, is below `a * b`. -/
theorem tile_lt {a b : ℕ} (t : Fin a) (r : Fin b) : b * t.val + r.val < a * b := by
  have ht : t.val + 1 ≤ a := t.isLt
  have hr := r.isLt
  calc b * t.val + r.val < b * t.val + b := by omega
    _ = b * (t.val + 1) := by ring
    _ ≤ b * a := Nat.mul_le_mul_left _ ht
    _ = a * b := Nat.mul_comm _ _

/-- A sum over `a * b` indices is the sum over the `a` tiles of the sum over the `b` indices of each tile:
    `∑ n, f n = ∑ t, ∑ r, f (b t + r)`. -/
theorem sum_fin_mul (a b : ℕ) (f : Fin (a * b) → M) :
    ∑ n : Fin (a * b), f n = ∑ t : Fin a, ∑ r : Fin b, f ⟨b * t.val + r.val, tile_lt t r⟩ := by
  rw [← Fintype.sum_prod_type (f := fun p : Fin a × Fin b => f ⟨b * p.1.val + p.2.val, tile_lt p.1 p.2⟩)]
  refine (Fintype.sum_equiv finProdFinEquiv _ _ fun p => ?_).symm
  congr 1
  apply Fin.ext
  rw [finProdFinEquiv_apply_val]
  exact (Nat.add_comm _ _).symm

/-! ## Two axes cut into tiles -/

/-- A double sum over `(a * b) × (c * d)`, cut into `a` row tiles of `b` and `c` column tiles of `d` and summed tile
    by tile with the column tiles outermost, is the plain double sum. -/
theorem sum_tiles_mul (a b c d : ℕ) (f : Fin (a * b) → Fin (c * d) → M) :
    ∑ ci : Fin c, ∑ bi : Fin a, ∑ p : Fin b, ∑ j : Fin d,
        f ⟨b * bi.val + p.val, tile_lt bi p⟩ ⟨d * ci.val + j.val, tile_lt ci j⟩
      = ∑ x : Fin (a * b), ∑ y : Fin (c * d), f x y := by
  calc ∑ ci : Fin c, ∑ bi : Fin a, ∑ p : Fin b, ∑ j : Fin d,
          f ⟨b * bi.val + p.val, tile_lt bi p⟩ ⟨d * ci.val + j.val, tile_lt ci j⟩
      = ∑ bi : Fin a, ∑ ci : Fin c, ∑ p : Fin b, ∑ j : Fin d,
          f ⟨b * bi.val + p.val, tile_lt bi p⟩ ⟨d * ci.val + j.val, tile_lt ci j⟩ := Finset.sum_comm
    _ = ∑ bi : Fin a, ∑ p : Fin b, ∑ ci : Fin c, ∑ j : Fin d,
          f ⟨b * bi.val + p.val, tile_lt bi p⟩ ⟨d * ci.val + j.val, tile_lt ci j⟩ :=
        Finset.sum_congr rfl fun bi _ => Finset.sum_comm
    _ = ∑ bi : Fin a, ∑ p : Fin b, ∑ y : Fin (c * d), f ⟨b * bi.val + p.val, tile_lt bi p⟩ y :=
        Finset.sum_congr rfl fun bi _ => Finset.sum_congr rfl fun p _ =>
          (sum_fin_mul c d (f ⟨b * bi.val + p.val, tile_lt bi p⟩)).symm
    _ = ∑ x : Fin (a * b), ∑ y : Fin (c * d), f x y :=
        (sum_fin_mul a b fun x => ∑ y : Fin (c * d), f x y).symm

/-- A 4096 x 10240 double sum, cut into 8 row tiles of 512 and 10 column tiles of 1024, summed tile by tile. -/
theorem sum_tiles (f : Fin 4096 → Fin 10240 → M) :
    ∑ ci : Fin 10, ∑ bi : Fin 8, ∑ p : Fin 512, ∑ j : Fin 1024,
        f ⟨512 * bi.val + p.val, by omega⟩ ⟨1024 * ci.val + j.val, by omega⟩
      = ∑ b : Fin 4096, ∑ c : Fin 10240, f b c :=
  sum_tiles_mul 8 512 10 1024 f

/-! ## A vanishing tail -/

/-- A sum over `n + k` indices whose last `k` terms vanish is the sum of its first `n` terms. -/
theorem sum_drop_tail {n k : ℕ} (f : Fin (n + k) → M) (g : Fin n → M)
    (hlow : ∀ c : Fin n, f (Fin.castAdd k c) = g c) (hhigh : ∀ c : Fin k, f (Fin.natAdd n c) = 0) :
    ∑ c : Fin (n + k), f c = ∑ c : Fin n, g c := by
  rw [Fin.sum_univ_add, Finset.sum_congr rfl fun c _ => hlow c, Finset.sum_congr rfl fun c _ => hhigh c,
    Finset.sum_const_zero, add_zero]

/-- A sum over 10240 columns whose last 240 terms vanish is the sum over the first 10000. -/
theorem sum_drop_pad (f : Fin 10240 → M) (g : Fin 10000 → M)
    (hlow : ∀ c : Fin 10000, f ⟨c.val, by omega⟩ = g c) (hhigh : ∀ c : Fin 10240, 10000 ≤ c.val → f c = 0) :
    ∑ c : Fin 10240, f c = ∑ c : Fin 10000, g c :=
  sum_drop_tail (n := 10000) (k := 240) f g (fun c => hlow c)
    (fun c => hhigh (Fin.natAdd 10000 c) (Nat.le_add_right 10000 c.val))

/-! ## Corners of 8 × 128 tiles -/

/-- An 80 x 128 array that is zero except at the first lane of every eighth row, where row 8*t holds acc t: its total is the sum of acc. -/
theorem sum_corners (acc : Fin 10 → M) (out : (⟨2, ![80, 128]⟩ : Shape).Idx → M)
    (h : ∀ (r : Fin 80) (l : Fin 128), out (ix2 r l) = if r.val % 8 = 0 ∧ l.val = 0 then acc ⟨r.val / 8, by omega⟩ else 0) :
    ∑ j, out j = ∑ t : Fin 10, acc t := by
  rw [sum_idx2]
  -- in every row only lane 0 contributes
  have hlane : ∀ r : Fin 80, ∑ l : Fin 128, out (ix2 r l)
      = if r.val % 8 = 0 then acc ⟨r.val / 8, by omega⟩ else 0 := by
    intro r
    rw [Finset.sum_eq_single (⟨0, by omega⟩ : Fin 128)]
    · rw [h r ⟨0, by omega⟩]
      by_cases hr : r.val % 8 = 0
      · rw [if_pos ⟨hr, rfl⟩, if_pos hr]
      · rw [if_neg (fun hc => hr hc.1), if_neg hr]
    · intro l _ hl
      rw [h r l, if_neg]
      rintro ⟨_, hl0⟩
      exact hl (Fin.ext hl0)
    · intro hmem
      exact absurd (Finset.mem_univ _) hmem
  rw [Finset.sum_congr rfl fun r _ => hlane r]
  -- the rows, eight at a time: only the first of each eight contributes
  have hrows : ∑ r : Fin 80, (if r.val % 8 = 0 then acc ⟨r.val / 8, by omega⟩ else 0)
      = ∑ t : Fin 10, ∑ q : Fin 8,
          (if (8 * t.val + q.val) % 8 = 0 then acc ⟨(8 * t.val + q.val) / 8, by omega⟩ else 0) :=
    sum_fin_mul 10 8 fun r : Fin (10 * 8) => if r.val % 8 = 0 then acc ⟨r.val / 8, by omega⟩ else 0
  rw [hrows]
  refine Finset.sum_congr rfl fun t _ => ?_
  rw [Finset.sum_eq_single (⟨0, by omega⟩ : Fin 8)]
  · have h0 : (8 * t.val + 0) % 8 = 0 := by omega
    rw [if_pos h0]
    congr 1
    apply Fin.ext
    show (8 * t.val + 0) / 8 = t.val
    omega
  · intro q _ hq
    have hq0 : q.val ≠ 0 := fun hc => hq (Fin.ext hc)
    have hne : ¬ (8 * t.val + q.val) % 8 = 0 := by omega
    rw [if_neg hne]
  · intro hmem
    exact absurd (Finset.mem_univ _) hmem

end Cert.LibTiledSum
-- ==== Proof.Bridge.lean ====
/-
  The law that joins the two sides: the output array's total is the specification's double sum.

  The array's total is the sum of the ten class tiles' sums (everything but the ten corners is zero).  A class tile's sum is
  the sum over its eight batch tiles, and a tile's partial sum is the sum over its 512 × 1024 (sample, class) pairs of the
  pair's contribution; so the total is the sum over ALL 4096 × 10240 pairs, tile by tile — and addition of extended reals
  being commutative and associative, that is the plain double sum over samples and padded classes.  For each sample the 240
  padding classes contribute nothing, because a label below 10000 is never the number of a padding class; and on the 10000
  real classes a pair's contribution is the specification's, the padded centres being the centres there.
-/
import proofs.«136891_j29094108463751_2_alg».proof.Proof.OutArray
import proofs.«136891_j29094108463751_2_alg».proof.Proof.Terms
import proofs.«136891_j29094108463751_2_alg».proof.Proof.LibTiledSum

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- A class tile's sum, pair by pair: batch tile `bi`'s row `p` is sample 512·bi + p, and the class tile's column `j` is padded
    class 1024·ci + j. -/
theorem class_tiles (c : Dev nD) (ci : Fin 10) :
    Accum.classSum m c ci = ∑ bi : Fin 8, ∑ p : Fin 512, ∑ j : Fin 1024,
      Terms.pairTerm m c ⟨512 * bi.val + p.val, by omega⟩ ⟨1024 * ci.val + j.val, by omega⟩ := by
  unfold Accum.classSum
  refine Finset.sum_congr rfl fun bi _ => ?_
  unfold Accum.tileAt TileValue.tile
  refine Finset.sum_congr rfl fun p _ => Finset.sum_congr rfl fun j _ => ?_
  have hb := bi.isLt
  have hc := ci.isLt
  refine (Terms.term_eq m c _ p j).trans ?_
  exact congrArg₂ (Terms.pairTerm m c)
    (Fin.ext (by show 512 * ((8 * ci.val + bi.val) % 8) + p.val = 512 * bi.val + p.val; omega))
    (Fin.ext (by show 1024 * ((8 * ci.val + bi.val) / 8) + j.val = 1024 * ci.val + j.val; omega))

/-- The output array's total is the specification's double sum, when every label is below 10000. -/
theorem total_eq (c : Dev nD) (hL : ∀ b : Fin 4096, (Entry.argL m c (ix1 b)).toNat < 10000) :
    ∑ j : S80x128.Idx, OutArray.outG m c j
      = ∑ b : Fin 4096, ∑ cl : Fin 10000, Cert.CenterLoss.own (Entry.argX m c) (Entry.argL m c) (Entry.argC m c) b cl := by
  refine (Cert.LibTiledSum.sum_corners (Accum.classSum m c) (OutArray.outG m c) (fun r l => rfl)).trans ?_
  refine (Finset.sum_congr rfl fun ci _ => class_tiles m c ci).trans ?_
  refine (Cert.LibTiledSum.sum_tiles (Terms.pairTerm m c)).trans ?_
  refine Finset.sum_congr rfl fun b _ => ?_
  exact Cert.LibTiledSum.sum_drop_pad _ _ (fun cl => Terms.pairTerm_low m c b cl)
    (fun cc hc => Terms.pairTerm_high m c b cc (hL b) hc)

end Cert.KernelIdeal.Bridge

end
-- ==== Proof.RefLoss.lean ====
/-
  The reference program at the ideal instance computes the centre loss.

  Entry (b, c) of the reference's masked distance matrix is
      (‖x_b‖² + ‖c_c‖² − 2·⟨x_b, c_c⟩) · [label_b = c],
  the bracket being 1 or 0.  Each of the three sums is read off the program's stages at the pair (b, c), the bracket is
  turned into a choice between the distance and 0, and the total over all pairs, divided by the batch size, is the
  loss of the specification.
-/
import proofs.«136891_j29094108463751_2_alg».proof.Proof.Gen.ReferenceIdeal.Read
import proofs.«136891_j29094108463751_2_alg».proof.Proof.Spec
import Idealize.ShloMosaic.Lib.ValueIdx
import Idealize.ShloMosaic.PureOps.Ideal.Laws

noncomputable section

namespace Cert.ReferenceIdeal.RefLoss

open Idealize.ShloMosaic Idealize.ShloMosaic.ValueIdx
open Cert.ReferenceIdeal Cert.ReferenceIdeal.Gen Cert.ReferenceIdeal.Read Cert.CenterLoss

variable (X : FVec Ideal S4096x512 .f32) (L : IVec S4096 32) (C : FVec Ideal S10000x512 .f32)

/-! ## The composed index maps at a pair (b, c) -/

/-- Row b of the samples, feature k: where the squared norm of sample b reads. -/
theorem idx_sqX (b : Fin 4096) (c : Fin 10000) (k : Fin 512) :
    idx_main_v1 (idx_main_v2 (idx_main_v6 (ix2 b c))) k = ix2 b k :=
  funext fun a => Fin.ext (by match a with | ⟨0, _⟩ => rfl | ⟨1, _⟩ => rfl)

/-- Row c of the centres, feature k: where the squared norm of centre c reads. -/
theorem idx_sqC (b : Fin 4096) (c : Fin 10000) (k : Fin 512) :
    idx_main_v4 (idx_main_v5 (idx_main_v7 (ix2 b c))) k = ix2 c k :=
  funext fun a => Fin.ext (by match a with | ⟨0, _⟩ => rfl | ⟨1, _⟩ => rfl)

/-- The left factor of the contraction reads sample b at feature k. -/
theorem idx_dotL (b : Fin 4096) (c : Fin 10000) (k : Fin 512) :
    lidx_main_v10 (ix2 b c) k = ix2 b k :=
  funext fun a => Fin.ext (by match a with | ⟨0, _⟩ => rfl | ⟨1, _⟩ => rfl)

/-- The right factor, through the transposition, reads centre c at feature k. -/
theorem idx_dotR (b : Fin 4096) (c : Fin 10000) (k : Fin 512) :
    idx_main_v9 (ridx_main_v10 (ix2 b c) k) = ix2 c k :=
  funext fun a => Fin.ext (by match a with | ⟨0, _⟩ => rfl | ⟨1, _⟩ => rfl)

/-- The label read at the pair (b, c) is sample b's. -/
theorem idx_lab (b : Fin 4096) (c : Fin 10000) :
    idx_main_v14 (idx_main_v17 (ix2 b c)) = ix1 b :=
  funext fun a => Fin.ext (by match a with | ⟨0, _⟩ => rfl)

/-! ## The stages at a pair (b, c) -/

/-- ‖x_b‖², broadcast along the classes. -/
theorem sqX_at (b : Fin 4096) (c : Fin 10000) :
    val_main_v6 (F := Ideal) X (ix2 b c) = sqNormX X b := by
  rw [val_main_v6_apply, val_main_v2_apply, val_main_v1_apply, val_main_cst_apply, Ideal.ofBits_def,
    Ideal.ofBits_zero_f32, zero_add]
  unfold sqNormX
  refine Finset.sum_congr rfl fun k _ => ?_
  rw [val_main_v0_apply, Ideal.mulf_def, idx_sqX]

/-- ‖c_c‖², broadcast along the samples. -/
theorem sqC_at (b : Fin 4096) (c : Fin 10000) :
    val_main_v7 (F := Ideal) C (ix2 b c) = sqNormC C c := by
  rw [val_main_v7_apply, val_main_v5_apply, val_main_v4_apply, val_main_cst_0_apply, Ideal.ofBits_def,
    Ideal.ofBits_zero_f32, zero_add]
  unfold sqNormC
  refine Finset.sum_congr rfl fun k _ => ?_
  rw [val_main_v3_apply, Ideal.mulf_def, idx_sqC]

/-- ⟨x_b, c_c⟩: the contraction over the 512 features. -/
theorem inner_at (b : Fin 4096) (c : Fin 10000) :
    val_main_v10 (F := Ideal) X C (ix2 b c) = Cert.CenterLoss.inner X C b c := by
  rw [val_main_v10_apply]
  unfold Cert.CenterLoss.inner
  refine Finset.sum_congr rfl fun k _ => ?_
  rw [val_main_v9_apply, idx_dotL, idx_dotR]

/-- The constant 2, broadcast over all pairs. -/
theorem two_at (b : Fin 4096) (c : Fin 10000) :
    val_main_v11 (F := Ideal) (ix2 b c) = two := by
  rw [val_main_v11_apply, val_main_cst_1_apply, Ideal.ofBits_def]
  rfl

/-- The mask: 1 when sample b's label is the word of class c, else 0. -/
theorem mask_at (b : Fin 4096) (c : Fin 10000) :
    val_main_v20 (F := Ideal) L (ix2 b c) = if L (ix1 b) = BitVec.ofNat 32 c.val then (1 : EReal) else 0 := by
  rw [val_main_v20_apply, val_main_v19_apply, val_main_v17_apply, val_main_v14_apply, val_main_v18_apply,
    val_main_v16_apply, val_main_v15_apply, idx_lab]
  show ((((IntOp.cmpi .eq (L (ix1 b)) (BitVec.ofNat 32 c.val)).toNat : ℝ)) : EReal) = _
  unfold IntOp.cmpi
  by_cases h : L (ix1 b) = BitVec.ofNat 32 c.val
  · rw [if_pos h, h]
    simp
  · rw [if_neg h]
    have : (L (ix1 b) == BitVec.ofNat 32 c.val) = false := by simpa using h
    simp [this]

/-- Entry (b, c) of the masked distance matrix is what the pair contributes to the loss. -/
theorem own_at (b : Fin 4096) (c : Fin 10000) :
    val_main_v21 (F := Ideal) X L C (ix2 b c) = own X L C b c := by
  rw [val_main_v21_apply, val_main_v13_apply, val_main_v8_apply, val_main_v12_apply, Ideal.mulf_def, Ideal.subf_def,
    Ideal.addf_def, Ideal.mulf_def, sqX_at, sqC_at, inner_at, two_at, mask_at]
  unfold Cert.CenterLoss.own Cert.CenterLoss.dist
  by_cases h : L (ix1 b) = BitVec.ofNat 32 c.val
  · rw [if_pos h, if_pos h, mul_one]
  · rw [if_neg h, if_neg h, mul_zero]

/-! ## The total -/

/-- The reference's result is the centre loss. -/
theorem ref_loss :
    val_main_v23 (F := Ideal) X L C = fun _ => loss X L C := by
  funext i
  rw [val_main_v23_apply, Ideal.hostDivf_def, val_main_v22_apply, val_main_cst_2_apply, val_main_cst_3_apply,
    Ideal.ofBits_def, Ideal.ofBits_def, Ideal.ofBits_zero_f32, zero_add, sum_idx2]
  unfold Cert.CenterLoss.loss Cert.CenterLoss.count
  refine congrArg (fun s => Ideal.div s _) ?_
  refine Finset.sum_congr rfl fun b _ => Finset.sum_congr rfl fun c _ => ?_
  exact own_at X L C b c

end Cert.ReferenceIdeal.RefLoss

end
-- ==== Proof.LabelRange.lean ====
/-
  From the precondition on the inputs to the range of every label.

  The precondition is the conjunction of three totals by `and`: every entry of the two float arrays is finite, and every
  one of the 4096 signed 32-bit labels `L b` satisfies `0 ≤ L b` and `L b < 10000`. When the conjunction is `1`, the
  third total is `1`, so every label passes both signed comparisons; a word that is nonnegative read signed has the same
  value read unsigned, so every label is below 10000 read as a natural number (`label_lt`).
-/
import proofs.«136891_j29094108463751_2_alg».proof.Pre_finite_inputs
import Idealize.ShloMosaic.Lib.ReduceAll
import Idealize.ShloMosaic.Lib.ValueIdx

open Idealize.ShloMosaic

namespace Cert.LabelRange

/-- A 32-bit word that is at least `0` and below `10000`, both read signed, is below `10000` read unsigned: a
    nonnegative signed word has its top bit clear, and then its signed and unsigned values agree. -/
theorem toNat_lt_of_signed_range (x : BitVec 32) (h0 : IntOp.cmpi .sge x 0#32 = 1#1)
    (h1 : IntOp.cmpi .slt x 10000#32 = 1#1) : x.toNat < 10000 := by
  rw [IntOp.cmpi_sge, show (0#32 : BitVec 32).toInt = 0 from by decide] at h0
  rw [IntOp.cmpi_slt, show (10000#32 : BitVec 32).toInt = 10000 from by decide] at h1
  have hx : 2 * x.toNat < 2 ^ 32 := BitVec.toInt_pos_iff.1 h0
  rw [BitVec.toInt_eq_toNat_of_lt hx] at h1
  omega

/-- The scalar shape has one index. -/
instance : Subsingleton Cert.Pre_finite_inputs.S_.Idx := ⟨fun _ _ => funext fun d => d.elim0⟩

/-- Under the precondition every label, read as a natural number, is below 10000. -/
theorem label_lt [Cert.Pre_finite_inputs.Facts] {F : FTy → Type} [FloatOps F]
    (X : FVec F Cert.Pre_finite_inputs.S4096x512 .f32) (L : IVec Cert.Pre_finite_inputs.S4096 32)
    (C : FVec F Cert.Pre_finite_inputs.S10000x512 .f32)
    (h : Cert.Pre_finite_inputs.fn (F := F) X L C = fun _ => 1#1) (b : Fin 4096) :
    (L (ValueIdx.ix1 b)).toNat < 10000 := by
  have h0 := congrFun h ValueIdx.ix0
  dsimp only [Cert.Pre_finite_inputs.fn] at h0
  -- the conjunction is 1, so its last conjunct, the total over the labels, is 1
  have hall := (IntOp.andi_eq_one.1 h0).2
  -- a total by `and` that is 1 has a 1 at every entry
  have hb := Host.reduce_andi_all _ _ _ _ _ hall (ValueIdx.ix1 b)
  -- the entry is the conjunction of the two comparisons of the label with the constants 0 and 10000
  obtain ⟨hge, hlt⟩ := IntOp.andi_eq_one.1 hb
  exact toNat_lt_of_signed_range (L (ValueIdx.ix1 b)) hge hlt

end Cert.LabelRange
-- ==== Proof.lean ====
/-
  The centre loss of a batch — the mean over 4096 samples of the squared distance to the centre of the sample's own class,
  the distance expanded as ‖x‖² + ‖c‖² − 2⟨x, c⟩ — computed two ways, and that the two agree on the extended reals when every
  float input is finite and every label is a class number (0 ≤ label < 10000).

  The reference forms the whole 4096 × 10000 distance matrix, multiplies it by the one-hot mask of the labels, sums, and
  divides by the batch size.  The kernel pads the centres with 240 zero rows to 10240 = 10 × 1024, walks a 10 × 8 grid of
  (class tile, batch tile), and at each point forms the 512 × 1024 tile of the matrix, keeps the entries whose column is the
  row's label, sums the tile into an accumulator carried across the eight batch tiles of a class tile, and after the last one
  writes the accumulator to the corner of that class tile's output block; the host sums the output and divides by the batch
  size.

  Both are the specification's loss (Spec.lean).  The reference is, operation by operation (RefLoss.lean).  The kernel: each
  case's stores are pure functions of its loads (Pieces.lean), the tile's value is a plain double sum (TileValue.lean), the
  accumulator after a point is the sum of its class tile's partial sums so far (Accum.lean, by induction on the point), the
  output array after the region is one function of its index (OutArray.lean) whose total is the sum of all tiles, which
  regroups into the double sum over samples and padded classes; a label below 10000 never selects a padding class, and on the
  real classes the padded centres are the centres (Bridge.lean, with Terms.lean, Entry.lean, Blocks.lean).  A masked entry
  times its 0/1 mask and the entry selected or replaced by zero are the same extended real, and sums of extended reals may
  be regrouped freely, so finiteness of the float inputs is never used; the label range is (LabelRange.lean).
-/
import proofs.«136891_j29094108463751_2_alg».proof.Defs
import proofs.«136891_j29094108463751_2_alg».proof.Proof.Gen.Kernel
import proofs.«136891_j29094108463751_2_alg».proof.Proof.Gen.Kernel.Frame
import proofs.«136891_j29094108463751_2_alg».proof.Proof.Gen.KernelIdeal
import proofs.«136891_j29094108463751_2_alg».proof.Proof.Gen.KernelIdeal.Frame
import proofs.«136891_j29094108463751_2_alg».proof.Proof.Gen.ReferenceIdeal
import proofs.«136891_j29094108463751_2_alg».proof.Proof.Gen.ReferenceIdeal.Run
import proofs.«136891_j29094108463751_2_alg».proof.Proof.Gen.ReferenceIdeal.Read
import proofs.«136891_j29094108463751_2_alg».proof.Proof.Gen.Pre_finite_inputs
import proofs.«136891_j29094108463751_2_alg».proof.Proof.Bridge
import proofs.«136891_j29094108463751_2_alg».proof.Proof.RefLoss
import proofs.«136891_j29094108463751_2_alg».proof.Proof.LabelRange
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: it runs, and writes no argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel at the ideal values rewrote none of its operations. -/
theorem preserves : Cert.preserves_Kernel_KernelIdeal := trivial

/-- Both programs end with the specification's loss of the (agreeing) arguments. -/
theorem algebraic : Cert.algebraic_KernelIdeal_ReferenceIdeal := by
  intro m ρ m' ρ' hpre hagree
  have hL : ∀ (c : Dev Cert.KernelIdeal.nD) (b : Fin 4096),
      (Cert.KernelIdeal.Entry.argL m c (ValueIdx.ix1 b)).toNat < 10000 :=
    fun c b => Cert.LabelRange.label_lt _ _ _ (hpre c) b
  refine ⟨fun c => fun _ => Cert.CenterLoss.loss (Cert.KernelIdeal.Entry.argX m c) (Cert.KernelIdeal.Entry.argL m c)
    (Cert.KernelIdeal.Entry.argC m c), ?_, ?_⟩
  · refine (θ_run Cert.KernelIdeal.defs _ _).mono (fun _ h c => ⟨(h c).1.trans ?_, (h c).2⟩)
      (Cert.KernelIdeal.OutArray.run m ρ)
    rw [Cert.KernelIdeal.Bridge.total_eq m c (hL c)]
    rfl
  · refine (θ_run Cert.ReferenceIdeal.defs _ _).mono (fun _ h c => ⟨?_, (h c).2⟩)
      (Cert.ReferenceIdeal.Value.run (F := Ideal) m' ρ')
    rw [(h c).1, Cert.ReferenceIdeal.Read.val_main_v23_eq, Cert.ReferenceIdeal.RefLoss.ref_loss,
      (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
